-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 130
  | .vmem => 36
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x1, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S100000x64, .f32⟩
  | 111 => ⟨S_, .f32⟩
  | 112 => ⟨S1000x64, .f32⟩
  | 113 => ⟨S100000x1, .i32⟩
  | 114 => ⟨S1000x64, .f32⟩
  | 115 => ⟨S_, .f32⟩
  | 116 => ⟨S100000, .f32⟩
  | 117 => ⟨S_, .f32⟩
  | 118 => ⟨S1000, .f32⟩
  | 119 => ⟨S100000x1, .i32⟩
  | 120 => ⟨S1000, .f32⟩
  | 121 => ⟨S_, .f32⟩
  | 122 => ⟨S1000, .f32⟩
  | 123 => ⟨S1000, .f32⟩
  | 124 => ⟨S1000x1, .f32⟩
  | 125 => ⟨S1000x64, .f32⟩
  | 126 => ⟨S1000x64, .f32⟩
  | 127 => ⟨S1000x1, .f32⟩
  | _ => ⟨S100000x128, .f32⟩

abbrev hbmTy0_1 (i : Nat) : BufTy := match i % 128 with
  | 0 => ⟨S1x1, .f32⟩
  | 1 => ⟨S1000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1000x64, .f32⟩
  | .local _ .vmem, ⟨31, _⟩ => ⟨S64x1, .f32⟩
  | .local _ .vmem, ⟨32, _⟩ => ⟨S1000x1, .f32⟩
  | .local _ .vmem, ⟨33, _⟩ => ⟨S1000x1, .f32⟩
  | .local _ .vmem, ⟨34, _⟩ => ⟨S1x1, .f32⟩
  | .local _ .vmem, ⟨35, _⟩ => ⟨S1000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc7_stg0_0 : Ref sig .tc := ⟨.vmem, 33, rfl⟩
abbrev cc7_stg1_0 : Ref sig .tc := ⟨.vmem, 34, rfl⟩
abbrev cc7_stg2_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc7_sem0_0 : DmaSem sig := 33
abbrev cc7_sem1_0 : DmaSem sig := 34
abbrev cc7_sem2_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1000x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1000x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1000x1 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1000x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x1_S64x1_0_0 : ∀ a, (![0, 0] : Fin 2 → Nat) a + S64x1.size a ≤ S64x1.size a
  h_S64x1 : 0 < S64x1.numel
  inb_S1000x1_S1000x1_0_0 : ∀ a, (![0, 0] : Fin 2 → Nat) a + S1000x1.size a ≤ S1000x1.size a
  h_S1000x1 : 0 < S1000x1.numel
  shapeCasts_S1_S1x1 : S1.ShapeCasts S1x1
  shapeCasts_S1000x1_S1000x1 : S1000x1.ShapeCasts S1000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S1000x64.size a
  hwx6_0 : ∀ i : grid6.Coords, EltTy.bits .f32 = 32 ∨ (Rect.block (s := S1000x64) S1000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S1000x1.size a ≤ S1000x1.size a
  hwx6_2 : ∀ i : grid6.Coords, EltTy.bits .f32 = 32 ∨ (Rect.block (s := S1000x1) S1000x1.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S1000x1.size a ≤ S1000x1.size a
  hwx7_0 : ∀ i : grid7.Coords, EltTy.bits .f32 = 32 ∨ (Rect.block (s := S1000x1) S1000x1.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S1000x1.size a ≤ S1000x1.size a
  hwx7_2 : ∀ i : grid7.Coords, EltTy.bits .f32 = 32 ∨ (Rect.block (s := S1000x1) S1000x1.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S1000x64.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1000x1.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S1000x1.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v93) S1x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1000x1.size cc7_transform_2 reads7_2 true false 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x1, .f32⟩
  | 88 => ⟨S1700000x64, .f32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S1000x64, .f32⟩
  | 122 => ⟨S100000x1, .i32⟩
  | 123 => ⟨S1000x64, .f32⟩
  | 124 => ⟨S_, .f32⟩
  | 125 => ⟨S100000, .f32⟩
  | 126 => ⟨S_, .f32⟩
  | 127 => ⟨S1000, .f32⟩
  | _ => ⟨S100000x128, .f32⟩

abbrev hbmTy0_1 (i : Nat) : BufTy := match i % 128 with
  | 0 => ⟨S100000x1, .i32⟩
  | 1 => ⟨S1000, .f32⟩
  | 2 => ⟨S_, .f32⟩
  | 3 => ⟨S1000, .f32⟩
  | 4 => ⟨S1000, .f32⟩
  | 5 => ⟨S1000x1, .f32⟩
  | 6 => ⟨S1000x64, .f32⟩
  | 7 => ⟨S1000x64, .f32⟩
  | 8 => ⟨S1000x1, .f32⟩
  | 9 => ⟨S1x1, .f32⟩
  | 10 => ⟨S1000x1, .f32⟩
  | 11 => ⟨S1000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x1_S1000x1_1_0_0_1_n_n_wf : DotDims.WF S1000x64 S64x1 S1000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

class Facts : Prop extends Facts₀ where

variable [Facts]
-- ==== Proof.KernelRun.lean ====
/-
  The idealized kernel's run, read in full.

  The program is eight tiled regions among stretches of host operations.  The generated frame certificate follows the
  contents of every buffer of a core through that sequence, boundary by boundary, and ends with every buffer that is
  not scoped to a region holding the last boundary's contents.  The frame claim keeps only what that says about the
  eleven argument arrays.  Here the same run is stated with its whole conclusion: in every final state, every such
  buffer holds the last boundary's contents.  The result array is one of them, so its final contents are the last
  boundary's contents at the result's buffer.
-/
import proofs.«117345_j46729244181042_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each buffer that is
    not scoped to a region holds the contents the last boundary of the run assigns to it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The run with the result and the eleven arguments read off: the result array ends at the last boundary's contents
    of its buffer, and each argument array ends as it was launched. -/
theorem run_result : θ_run defs (onTc (τ := τ) (main (F := F))) ⟨m, fun _ => 0, ρ⟩ (fun r => ∀ c : Dev nD,
      r.2.mem ((c.tc : Thread nD τ).loc main_v94) = W16 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v94 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)
    (run_all m ρ)

end Cert.KernelIdeal.GcnRun

end
-- ==== Proof.GcnSpec.lean ====
/-
  A three-layer graph convolution with mean pooling and a linear head, as one function of its eleven arrays.

  The graph has 100000 nodes and 1600000 directed edges; a self-loop is appended for every node, giving 1700000
  edges with sources `src` and targets `dst`.  The degree of a node counts the edges that arrive at it, and
  `dinv` is the reciprocal square root of the degree (of at least one), or zero where no edge arrives.  An edge
  e weighs `norm e = dinv (src e) * dinv (dst e)`.  One propagation step sends every node's row along every edge,
  scaled by the edge's weight, and adds up what arrives at each node:
      (agg h) (v, :) = sum over the edges e with dst e = v of  h (src e, :) * norm e.
  A layer multiplies the rows by a weight matrix, propagates, and adds a bias to every row; the first two layers are
  followed by the rectifier.  The rows are then averaged within each of 1000 groups (the count of a group taken as at
  least one), multiplied by a [64, 1] matrix and shifted by a scalar bias.

  Every stage below is spelt with the host operations of the reference program, over its dimension records.  The
  stages are never opened by the proofs that use them: both programs are shown to compute this composition, stage by
  stage.
-/
import proofs.«117345_j46729244181042_1_alg».proof.ReferenceIdeal

noncomputable section

namespace Cert.Gcn

open Cert.ReferenceIdeal Cert.ReferenceIdeal.Facts₀ Cert.ReferenceIdeal.Facts Idealize.ShloMosaic

variable {F : FTy → Type} [FloatOps F] [Cert.ReferenceIdeal.Facts]

/-- The contents of a float array of shape `s`. -/
abbrev FA (F : FTy → Type) (s : Shape) : Type := (⟨s, .f32⟩ : BufTy).Contents (Elt F)
/-- The contents of a 32-bit integer array of shape `s`. -/
abbrev IA (F : FTy → Type) (s : Shape) : Type := (⟨s, .i32⟩ : BufTy).Contents (Elt F)

/-- The edge sources: row 0 of the edge list, then one self-loop per node. -/
def srcIdx (ei : IA F S2x1600000) : IA F S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edge targets: row 1 of the edge list, then one self-loop per node. -/
def dstIdx (ei : IA F S2x1600000) : IA F S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The degree of every node: the number of edges that arrive at it. -/
def deg (ei : IA F S2x1600000) : FA F S100000 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstIdx (F := F) ei)) (broadcastInDim S1700000 ![] bcast_S_S1700000 (constant S_ .f32 0x3F800000#32))

/-- The reciprocal square root of the degree (of at least one), zero where the degree is not positive. -/
def dinv (ei : IA F S2x1600000) : FA F S100000 :=
  select (cmpf (F := F) .ogt (deg ei) (broadcastInDim S100000 ![] bcast_S_S100000 (constant S_ .f32 0x00000000#32))) (Host.rsqrt (maximumf (deg ei) (broadcastInDim S100000 ![] bcast_S_S100000 (constant S_ .f32 0x3F800000#32)))) (broadcastInDim S100000 ![] bcast_S_S100000 (id (constant S_ .f32 0x00000000#32)))

/-- An index array with its negative entries shifted up by the number of nodes, as a column. -/
def wrapCol (i : IA F S1700000) : IA F S1700000x1 :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- The weight of every edge: the product of `dinv` at its source and at its target. -/
def norm (ei : IA F S2x1600000) : FA F S1700000 :=
  mulf (Host.gather gather_S100000_S1700000x1_S1700000_n_0_n_n_0_1_1 (dinv ei) (wrapCol (F := F) (srcIdx (F := F) ei))) (Host.gather gather_S100000_S1700000x1_S1700000_n_0_n_n_0_1_1 (dinv ei) (wrapCol (F := F) (dstIdx (F := F) ei)))

/-- One propagation step: every node's row sent along every edge, scaled by the edge's weight, and summed at the target. -/
def agg (ei : IA F S2x1600000) (h : FA F S100000x64) : FA F S100000x64 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstIdx (F := F) ei)) (mulf (Host.gather gather_S100000x64_S1700000x1_S1700000x64_1_0_n_n_0_1_164 h (wrapCol (F := F) (srcIdx (F := F) ei))) (broadcastInDim S1700000x64 ![0, 1] bcast_S1700000x1_S1700000x64_0_1 (broadcastInDim S1700000x1 ![0] bcast_S1700000_S1700000x1_0 (norm ei))))

/-- A [1, 64] row added to every one of the 100000 rows. -/
def biasedRow (a : FA F S100000x64) (b : FA F S1x64) : FA F S100000x64 :=
  addf a (broadcastInDim S100000x64 ![0, 1] bcast_S1x64_S100000x64_0_1 b)

/-- A [64] bias, laid out as a row, added to every one of the 100000 rows. -/
def biased (a : FA F S100000x64) (b : FA F S64) : FA F S100000x64 :=
  biasedRow a (broadcastInDim S1x64 ![1] bcast_S64_S1x64_1 b)

/-- The rectifier on a [100000, 64] array. -/
def rect (a : FA F S100000x64) : FA F S100000x64 :=
  maximumf a (broadcastInDim S100000x64 ![] bcast_S_S100000x64 (constant S_ .f32 0x00000000#32))

/-- The first layer's product: [100000, 128] by [128, 64]. -/
def mulIn (x : FA F S100000x128) (w : FA F S128x64) : FA F S100000x64 :=
  Host.dotGeneral dot_S100000x128_S128x64_S100000x64_1_0_0_1_n_n none x w

/-- A hidden layer's product: [100000, 64] by [64, 64]. -/
def mulHid (x : FA F S100000x64) (w : FA F S64x64) : FA F S100000x64 :=
  Host.dotGeneral dot_S100000x64_S64x64_S100000x64_1_0_0_1_n_n none x w

/-- The mean of the rows within each of the 1000 groups, a group's count taken as at least one. -/
def pooled (batch : IA F S100000) (h : FA F S100000x64) : FA F S1000x64 :=
  Host.divf (Host.scatterAdd scatter_S1000x64_S100000x1_S100000x64_1_0_0_1 (broadcastInDim S1000x64 ![] bcast_S_S1000x64 (constant S_ .f32 0x00000000#32)) (broadcastInDim S100000x1 ![0] bcast_S100000_S100000x1_0 batch) h) (broadcastInDim S1000x64 ![0, 1] bcast_S1000x1_S1000x64_0_1 (broadcastInDim S1000x1 ![0] bcast_S1000_S1000x1_0 (maximumf (Host.scatterAdd scatter_S1000_S100000x1_S100000_n_0_0_1 (broadcastInDim S1000 ![] bcast_S_S1000 (constant S_ .f32 0x00000000#32)) (broadcastInDim S100000x1 ![0] bcast_S100000_S100000x1_0 batch) (broadcastInDim S100000 ![] bcast_S_S100000 (constant S_ .f32 0x3F800000#32))) (broadcastInDim S1000 ![] bcast_S_S1000 (constant S_ .f32 0x3F800000#32)))))

/-- The head's product: [1000, 64] by [64, 1]. -/
def mulOut (x : FA F S1000x64) (w : FA F S64x1) : FA F S1000x1 :=
  Host.dotGeneral dot_S1000x64_S64x1_S1000x1_1_0_0_1_n_n none x w

/-- A [1, 1] entry added to every one of the 1000 rows. -/
def shiftedRow (a : FA F S1000x1) (b : FA F S1x1) : FA F S1000x1 :=
  addf a (broadcastInDim S1000x1 ![0, 1] bcast_S1x1_S1000x1_0_1 b)

/-- The head's scalar bias, laid out as a [1, 1] entry, added to every one of the 1000 rows. -/
def shifted (a : FA F S1000x1) (b : FA F S1) : FA F S1000x1 :=
  shiftedRow a (broadcastInDim S1x1 ![1] bcast_S1_S1x1_1 b)

/-- The hidden rows after the three layers. -/
def hidden (x : FA F S100000x128) (ei : IA F S2x1600000) (W1 : FA F S128x64) (b1 : FA F S64) (W2 : FA F S64x64) (b2 : FA F S64)
    (W3 : FA F S64x64) (b3 : FA F S64) : FA F S100000x64 :=
  biased (agg ei (mulHid (rect (biased (agg ei (mulHid (rect (biased (agg ei (mulIn x W1)) b1)) W2)) b2)) W3)) b3

/-- The network: three layers, mean pooling, the linear head. -/
def out (x : FA F S100000x128) (ei : IA F S2x1600000) (batch : IA F S100000) (W1 : FA F S128x64) (b1 : FA F S64)
    (W2 : FA F S64x64) (b2 : FA F S64) (W3 : FA F S64x64) (b3 : FA F S64) (Wl : FA F S64x1) (bl : FA F S1) : FA F S1000x1 :=
  shifted (mulOut (pooled batch (hidden x ei W1 b1 W2 b2 W3 b3)) Wl) bl

end Cert.Gcn

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibGraphLayers.lean ====
/-
  The layers of a two-layer hypergraph convolution, read as functions of indices on the extended reals.

  With G the [n, n] propagation matrix, the network is  out = G (relu (G (X W1 + b1)) W2 + b2).  Three pieces make it up:
  the matrix product  (x w)(r, c) = sum_k x(r, k) * w(k, c),  the rectifier  max(v, 0)  entry by entry, and the dense
  layer  x w + b  whose bias is added to every row.  Each is stated once, generic in the extents, and the spellings
  in which a kernel body and a host program write it are read to it: a matrix product accumulated into a zero
  matrix, with or without its operands narrowed to bf16 (a change of format is the identity on extended reals), and
  the host's general dot product; the maximum against a splatted or a broadcast zero; a bias that arrives as a
  [1, N] row, cast to its own shape and repeated down the rows.

  An entry (r, c) of a product depends on row r of the left factor and column c of the right factor only.  That is
  what lets a kernel that computes a block of rows at a time, or that carries columns of zero padding beside the real
  ones, be compared with a reference that multiplies whole unpadded matrices.
-/
import proofs.«117345_j46729244181042_1_alg».proof.Proof.LibDense
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibGraphLayers

open Idealize.ShloMosaic Idealize.ShloMosaic.ValueIdx Cert.LibDense

/-- The zero offsets of a rank-two access, as a constant function. -/
theorem zero_offsets : (![0, 0] : Fin 2 → Nat) = fun _ => 0 := funext fun a => by fin_cases a <;> rfl

/-! ## The matrix product -/

/-- The product of an [A, K] by a [K, N] matrix: entry (r, c) is the sum over k of x(r, k) * w(k, c). -/
def mm (A K N : ℕ) (x : (⟨2, ![A, K]⟩ : Shape).Idx → EReal) (w : (⟨2, ![K, N]⟩ : Shape).Idx → EReal) :
    (⟨2, ![A, N]⟩ : Shape).Idx → EReal :=
  fun j => ∑ k : Fin K, x (ix2 (j 0 : Fin A) k) * w (ix2 k (j 1 : Fin N))

/-- A kernel's product of bf16-narrowed operands into the zero matrix is the product. -/
theorem mm_kernel_bf16 {A K N : ℕ} (x : FVec Ideal ⟨2, ![A, K]⟩ .f32) (w : FVec Ideal ⟨2, ![K, N]⟩ .f32)
    (hlt : FTy.bits .bf16 < FTy.bits .f32) :
    matmul (DotDims.plain A K N) none (truncf .bf16 x hlt) (truncf .bf16 w hlt) (constant ⟨2, ![A, N]⟩ .f32 0x00000000#32)
      = mm A K N x w := by
  funext j
  exact (Ideal.matmul_constant_zero_apply (DotDims.plain A K N) none (truncf .bf16 x hlt) (truncf .bf16 w hlt) j).trans
    (plain_sum A K N x w j)

/-- A kernel's product of f32 operands into the zero matrix is the product. -/
theorem mm_kernel_f32 {A K N : ℕ} (x : FVec Ideal ⟨2, ![A, K]⟩ .f32) (w : FVec Ideal ⟨2, ![K, N]⟩ .f32) :
    matmul (DotDims.plain A K N) none x w (constant ⟨2, ![A, N]⟩ .f32 0x00000000#32) = mm A K N x w := by
  funext j
  exact (Ideal.matmul_constant_zero_apply (DotDims.plain A K N) none x w j).trans (plain_sum A K N x w j)

/-- The host's general dot product with the plain dimension numbers is the product. -/
theorem mm_host {A K N : ℕ} (x : FVec Ideal ⟨2, ![A, K]⟩ .f32) (w : FVec Ideal ⟨2, ![K, N]⟩ .f32) :
    Host.dotGeneral (DotDims.plain A K N) none x w = mm A K N x w := by
  funext j
  exact (Ideal.dotGeneral_apply (DotDims.plain A K N) none _ x w j).trans (plain_sum A K N x w j)

/-- Entry (p, q) of a product depends on row p of the left factor and column q of the right factor only. -/
theorem mm_congr {A A' K N N' : ℕ} (x : (⟨2, ![A, K]⟩ : Shape).Idx → EReal) (x' : (⟨2, ![A', K]⟩ : Shape).Idx → EReal)
    (w : (⟨2, ![K, N]⟩ : Shape).Idx → EReal) (w' : (⟨2, ![K, N']⟩ : Shape).Idx → EReal)
    (p : Fin A) (p' : Fin A') (q : Fin N) (q' : Fin N')
    (hx : ∀ k : Fin K, x (ix2 p k) = x' (ix2 p' k)) (hw : ∀ k : Fin K, w (ix2 k q) = w' (ix2 k q')) :
    mm A K N x w (ix2 p q) = mm A' K N' x' w' (ix2 p' q') := by
  show ∑ k : Fin K, x (ix2 p k) * w (ix2 k q) = ∑ k : Fin K, x' (ix2 p' k) * w' (ix2 k q')
  exact Finset.sum_congr rfl fun k _ => by rw [hx k, hw k]

/-! ## The rectifier -/

/-- The rectifier, entry by entry: the larger of the entry and zero. -/
def relu {s : Shape} (v : s.Idx → EReal) : s.Idx → EReal := fun j => max (v j) 0

/-- A kernel's maximum against a splatted zero word is the rectifier. -/
theorem relu_kernel {s : Shape} (v : FVec Ideal s .f32) :
    maximumf v (broadcast s (Scalar.ofBits (F := Ideal) .f32 0x00000000#32)) = relu v := by
  funext j
  show max (v j) (Ideal.ofBits .f32 0x00000000#32) = max (v j) 0
  rw [Ideal.ofBits_zero_f32]

/-- The host's maximum against a broadcast zero constant is the rectifier. -/
theorem relu_host {s : Shape} (v : FVec Ideal s .f32) (hS : (⟨0, ![]⟩ : Shape).BroadcastsInDim s (![] : Fin 0 → Fin s.rank)) :
    maximumf v (broadcastInDim s ![] hS (constant (F := Ideal) ⟨0, ![]⟩ .f32 0x00000000#32)) = relu v := by
  funext j
  show max (v j) (Ideal.ofBits .f32 0x00000000#32) = max (v j) 0
  rw [Ideal.ofBits_zero_f32]

/-- The rectifier of an entry depends on that entry only. -/
theorem relu_congr {s s' : Shape} (v : s.Idx → EReal) (v' : s'.Idx → EReal) (j : s.Idx) (j' : s'.Idx) (h : v j = v' j') :
    relu v j = relu v' j' := by
  show max (v j) 0 = max (v' j') 0
  rw [h]

/-! ## The dense layer, its bias a [1, N] row -/

/-- A [1, N] row cast to its own shape and repeated down A rows reads, at (r, c), the row's entry c. -/
theorem row_repeated {A N : ℕ} {α : Type} (b : (⟨2, ![1, N]⟩ : Shape).Idx → α)
    (h1 : (⟨2, ![1, N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix2 (0 : Fin 1) (i 1 : Fin N)) := by
  rw [shapeCast_self]
  refine broadcastTo_apply b hb i (ix2 (0 : Fin 1) (i 1 : Fin N)) ?_
  intro a
  match a with
  | ⟨0, _⟩ => rfl
  | ⟨1, _⟩ =>
    show (i 1).val = if N = 1 then 0 else (i 1).val
    split
    · have := (i 1).isLt; have e : (i 1).val < N := this; omega
    · rfl

/-- The dense layer with the bias as a [1, N] row: entry (r, c) is the sum over k of x(r, k) * w(k, c), plus b(0, c). -/
def denseR (A K N : ℕ) (x : (⟨2, ![A, K]⟩ : Shape).Idx → EReal) (w : (⟨2, ![K, N]⟩ : Shape).Idx → EReal)
    (b : (⟨2, ![1, N]⟩ : Shape).Idx → EReal) : (⟨2, ![A, N]⟩ : Shape).Idx → EReal :=
  fun j => mm A K N x w j + b (ix2 (0 : Fin 1) (j 1 : Fin N))

/-- A kernel's dense layer on f32 operands: the product into a zero matrix plus the repeated bias row. -/
theorem denseR_kernel_f32 {A K N : ℕ} (x : FVec Ideal ⟨2, ![A, K]⟩ .f32) (w : FVec Ideal ⟨2, ![K, N]⟩ .f32)
    (b : FVec Ideal ⟨2, ![1, N]⟩ .f32)
    (h1 : (⟨2, ![1, N]⟩ : Shape).ShapeCasts ⟨2, ![1, N]⟩) (hb : (⟨2, ![1, N]⟩ : Shape).Broadcasts ⟨2, ![A, N]⟩) :
    addf (matmul (DotDims.plain A K N) none x w (constant ⟨2, ![A, N]⟩ .f32 0x00000000#32))
      (broadcastTo ⟨2, ![A, N]⟩ (shapeCast ⟨2, ![1, N]⟩ b h1) hb) = denseR A K N x w b := by
  funext j
  rw [addf_apply, row_repeated b h1 hb j, mm_kernel_f32]
  rfl

/-- A kernel's dense layer on bf16-narrowed operands: the same function. -/
theorem denseR_kernel_bf16 {A K N : ℕ} (x : FVec Ideal ⟨2, ![A, K]⟩ .f32) (w : FVec Ideal ⟨2, ![K, N]⟩ .f32)
    (b : FVec Ideal ⟨2, ![1, N]⟩ .f32) (hlt : FTy.bits .bf16 < FTy.bits .f32)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = denseR A K N x w b := by
  funext j
  rw [addf_apply, row_repeated b h1 hb j, mm_kernel_bf16]
  rfl

/-- Entry (p, q) of the dense layer depends on row p of the input, column q of the weights and entry q of the bias. -/
theorem denseR_congr {A A' K N N' : ℕ} (x : (⟨2, ![A, K]⟩ : Shape).Idx → EReal) (x' : (⟨2, ![A', K]⟩ : Shape).Idx → EReal)
    (w : (⟨2, ![K, N]⟩ : Shape).Idx → EReal) (w' : (⟨2, ![K, N']⟩ : Shape).Idx → EReal)
    (b : (⟨2, ![1, N]⟩ : Shape).Idx → EReal) (b' : (⟨2, ![1, N']⟩ : Shape).Idx → EReal)
    (p : Fin A) (p' : Fin A') (q : Fin N) (q' : Fin N')
    (hx : ∀ k : Fin K, x (ix2 p k) = x' (ix2 p' k)) (hw : ∀ k : Fin K, w (ix2 k q) = w' (ix2 k q'))
    (hb : b (ix2 (0 : Fin 1) q) = b' (ix2 (0 : Fin 1) q')) :
    denseR A K N x w b (ix2 p q) = denseR A' K N' x' w' b' (ix2 p' q') := by
  show mm A K N x w (ix2 p q) + b (ix2 (0 : Fin 1) q) = mm A' K N' x' w' (ix2 p' q') + b' (ix2 (0 : Fin 1) q')
  rw [mm_congr x x' w w' p p' q q' hx hw, hb]

/-- Against the dense layer whose bias is an [N] vector: the same entry when the row's entry is the vector's. -/
theorem denseR_eq_dense {A A' K N N' : ℕ} (x : (⟨2, ![A, K]⟩ : Shape).Idx → EReal) (x' : (⟨2, ![A', K]⟩ : Shape).Idx → EReal)
    (w : (⟨2, ![K, N]⟩ : Shape).Idx → EReal) (w' : (⟨2, ![K, N']⟩ : Shape).Idx → EReal)
    (b : (⟨2, ![1, N]⟩ : Shape).Idx → EReal) (b' : (⟨1, ![N']⟩ : Shape).Idx → EReal)
    (p : Fin A) (p' : Fin A') (q : Fin N) (q' : Fin N')
    (hx : ∀ k : Fin K, x (ix2 p k) = x' (ix2 p' k)) (hw : ∀ k : Fin K, w (ix2 k q) = w' (ix2 k q'))
    (hb : b (ix2 (0 : Fin 1) q) = b' (ix1 q')) :
    denseR A K N x w b (ix2 p q) = dense A' K N' x' w' b' (ix2 p' q') := by
  show mm A K N x w (ix2 p q) + b (ix2 (0 : Fin 1) q) = (∑ k : Fin K, x' (ix2 p' k) * w' (ix2 k q')) + b' (ix1 q')
  rw [mm_congr x x' w w' p p' q q' hx hw, hb]
  rfl

/-! ## The network -/

/-- The two-layer hypergraph convolution on n nodes with d input features, h hidden ones and c classes:
    out = G (relu (G (X W1 + b1)) W2 + b2). -/
def hgnn (n d h c : ℕ) (X : (⟨2, ![n, d]⟩ : Shape).Idx → EReal) (G : (⟨2, ![n, n]⟩ : Shape).Idx → EReal)
    (W1 : (⟨2, ![d, h]⟩ : Shape).Idx → EReal) (b1 : (⟨1, ![h]⟩ : Shape).Idx → EReal)
    (W2 : (⟨2, ![h, c]⟩ : Shape).Idx → EReal) (b2 : (⟨1, ![c]⟩ : Shape).Idx → EReal) : (⟨2, ![n, c]⟩ : Shape).Idx → EReal :=
  mm n n c G (dense n h c (relu (mm n n h G (dense n d h X W1 b1))) W2 b2)

end Cert.LibGraphLayers

end
-- ==== Proof.TileLemmas.lean ====
/-
  Two row-wise functions of a pair of arrays, read at an index.

  A matrix product's entry (r, c) is the sum over k of x(r, k) * w(k, c): it depends on row r of the left factor and column
  c of the right one only.  A [1, N] row added to every row of an [A, N] array (and, in one variant, rectified) has entry
  (r, c) depending on entry (r, c) of the array and entry (0, c) of the row only.  Both facts are stated as congruences
  between two pairs of arrays of possibly different heights, which is how a block of rows computed on its own is compared
  with the same rows of the whole result.  Also here: a [1, N] row broadcast along the rows of an [A, N] array, and a [N]
  vector laid out as a [1, N] row by a reshape or by a broadcast, read at an index.
-/
import proofs.«117345_j46729244181042_1_alg».proof.Proof.LibGraphLayers
import Idealize.ShloMosaic.Lib.Pipeline.Value
import Idealize.ShloMosaic.Lib.ValueIdx
import Idealize.ShloMosaic.PureOps.Ideal.Laws

noncomputable section

open scoped BigOperators

namespace Cert.KernelIdeal.Tiles

open Idealize.ShloMosaic Idealize.ShloMosaic.ValueIdx Cert.LibGraphLayers

theorem hz : (![0, 0] : Fin 2 → Nat) = fun _ => 0 := funext fun a => by fin_cases a <;> rfl

/-- Two products agree at a pair of indices when the left factors agree on the two rows and the right factors on the two
    columns. -/
theorem mm_at {A A' K N N' : ℕ} (x : (⟨2, ![A, K]⟩ : Shape).Idx → EReal) (x' : (⟨2, ![A', K]⟩ : Shape).Idx → EReal)
    (w : (⟨2, ![K, N]⟩ : Shape).Idx → EReal) (w' : (⟨2, ![K, N']⟩ : Shape).Idx → EReal)
    (j : (⟨2, ![A, N]⟩ : Shape).Idx) (j' : (⟨2, ![A', N']⟩ : Shape).Idx)
    (hx : ∀ k : Fin K, x (ix2 (j 0 : Fin A) k) = x' (ix2 (j' 0 : Fin A') k))
    (hw : ∀ k : Fin K, w (ix2 k (j 1 : Fin N)) = w' (ix2 k (j' 1 : Fin N'))) :
    mm A K N x w j = mm A' K N' x' w' j' := by
  show ∑ k : Fin K, x (ix2 (j 0 : Fin A) k) * w (ix2 k (j 1 : Fin N)) = ∑ k : Fin K, x' (ix2 (j' 0 : Fin A') k) * w' (ix2 k (j' 1 : Fin N'))
  exact Finset.sum_congr rfl fun k _ => by rw [hx k, hw k]

/-- Entry (r, c) of an [A, N] array plus entry (0, c) of a [1, N] row. -/
def rowAdd (A N : ℕ) (a : (⟨2, ![A, N]⟩ : Shape).Idx → EReal) (b : (⟨2, ![1, N]⟩ : Shape).Idx → EReal) :
    (⟨2, ![A, N]⟩ : Shape).Idx → EReal :=
  fun i => a i + b (ix2 (0 : Fin 1) (i 1 : Fin N))

/-- The same, rectified: the larger of the sum and zero. -/
def rowAddRect (A N : ℕ) (a : (⟨2, ![A, N]⟩ : Shape).Idx → EReal) (b : (⟨2, ![1, N]⟩ : Shape).Idx → EReal) :
    (⟨2, ![A, N]⟩ : Shape).Idx → EReal :=
  fun i => max (a i + b (ix2 (0 : Fin 1) (i 1 : Fin N))) 0

theorem rowAdd_at {A A' N : ℕ} (a : (⟨2, ![A, N]⟩ : Shape).Idx → EReal) (a' : (⟨2, ![A', N]⟩ : Shape).Idx → EReal)
    (b b' : (⟨2, ![1, N]⟩ : Shape).Idx → EReal) (j : (⟨2, ![A, N]⟩ : Shape).Idx) (j' : (⟨2, ![A', N]⟩ : Shape).Idx)
    (h0 : a j = a' j') (h1 : b (ix2 (0 : Fin 1) (j 1 : Fin N)) = b' (ix2 (0 : Fin 1) (j' 1 : Fin N))) :
    rowAdd A N a b j = rowAdd A' N a' b' j' := by
  show a j + b (ix2 (0 : Fin 1) (j 1 : Fin N)) = a' j' + b' (ix2 (0 : Fin 1) (j' 1 : Fin N))
  rw [h0, h1]

theorem rowAddRect_at {A A' N : ℕ} (a : (⟨2, ![A, N]⟩ : Shape).Idx → EReal) (a' : (⟨2, ![A', N]⟩ : Shape).Idx → EReal)
    (b b' : (⟨2, ![1, N]⟩ : Shape).Idx → EReal) (j : (⟨2, ![A, N]⟩ : Shape).Idx) (j' : (⟨2, ![A', N]⟩ : Shape).Idx)
    (h0 : a j = a' j') (h1 : b (ix2 (0 : Fin 1) (j 1 : Fin N)) = b' (ix2 (0 : Fin 1) (j' 1 : Fin N))) :
    rowAddRect A N a b j = rowAddRect A' N a' b' j' := by
  show max (a j + b (ix2 (0 : Fin 1) (j 1 : Fin N))) 0 = max (a' j' + b' (ix2 (0 : Fin 1) (j' 1 : Fin N))) 0
  rw [h0, h1]

/-- A [1, N] row broadcast along the rows of an [A, N] array reads, at (r, c), the row's entry (0, c). -/
theorem rowBroadcast {A N : ℕ} {α : Type} (b : (⟨2, ![1, N]⟩ : Shape).Idx → α)
    (h : (⟨2, ![1, N]⟩ : Shape).BroadcastsInDim ⟨2, ![A, N]⟩ ![0, 1]) (i : (⟨2, ![A, N]⟩ : Shape).Idx) :
    broadcastInDim ⟨2, ![A, N]⟩ ![0, 1] h b i = b (ix2 (0 : Fin 1) (i 1 : Fin N)) := by
  refine broadcastInDim_apply ![0, 1] h b i (ix2 (0 : Fin 1) (i 1 : Fin N)) ?_
  intro a
  match a with
  | ⟨0, _⟩ => rfl
  | ⟨1, _⟩ =>
    show (i 1).val = if N = 1 then 0 else (i 1).val
    split
    · have e : (i 1).val < N := (i 1).isLt; omega
    · rfl

/-- A [N] vector reshaped to a [1, N] row is the vector broadcast to that row along its one axis: both read, at (0, c),
    the vector's entry c. -/
theorem rowOf {N : ℕ} {α : Type} (b : (⟨1, ![N]⟩ : Shape).Idx → α)
    (h1 : (⟨1, ![N]⟩ : Shape).ShapeCasts ⟨2, ![1, N]⟩) (h2 : (⟨1, ![N]⟩ : Shape).BroadcastsInDim ⟨2, ![1, N]⟩ ![1]) :
    shapeCast ⟨2, ![1, N]⟩ b h1 = broadcastInDim ⟨2, ![1, N]⟩ ![1] h2 b := by
  funext j
  refine (shapeCast_addUnit_apply ![N] b h1 j).trans ?_
  refine (broadcastInDim_apply ![1] h2 b j (fun a => j a.succ) ?_).symm
  intro a
  match a with
  | ⟨0, _⟩ =>
    show (j 1).val = if N = 1 then 0 else (j 1).val
    split
    · have e : (j 1).val < N := (j 1).isLt; omega
    · rfl

end Cert.KernelIdeal.Tiles

end
-- ==== Proof.Region0.lean ====
/-
  Region 0 of the idealized kernel as one function of the two arrays it reads.

  The region multiplies the [100000, 128] array by the [128, 64] array, 10000 rows at a grid point: point t loads rows
  t * 10000 .. t * 10000 + 9999 of the left array and the whole right array, narrows both to bf16 (the identity on extended
  reals), multiplies them into a zero accumulator and writes the [10000, 64] product back as the same rows of the output.
  Entry (r, c) of a product depends on row r of the left factor and column c of the right one only, so each block
  written is the matching block of the whole product, and the 10 blocks cover the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks is the matrix product of the blocks. -/
theorem pay0 (x0 : Vec Ideal S10000x128 .f32) (x1 : Vec Ideal S128x64 .f32) : k0_pay1 x0 x1 = mm 10000 128 64 x0 x1 := by
  unfold k0_pay1
  exact mm_kernel_bf16 x0 x1 bitsLt_bf16_f32

/-- The printed index maps over the grid: the first input's block and the output block are the point's rows, every other
    block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- What point t writes back is block t of the whole product. -/
theorem flushed0 (c : Dev nD) (t : Fin cfg0.N) :
    (dat0 V c).flushed 2 t = ((cfg0.win 2).blk t).view.read (Elt Ideal)
      (mm 100000 128 64 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay0]
  obtain ⟨e0, e1, e2, e3, e4⟩ := idx_facts0 t
  funext j
  show mm 10000 128 64 (iblk0 V c 0 t) (iblk0 V c 1 t) j
    = mm 100000 128 64 (V c (Pipeline.arrRef spec0 0)) (V c (Pipeline.arrRef spec0 1)) (((cfg0.win 2).blk t).view.emb j)
  refine mm_at (iblk0 V c 0 t) (V c (Pipeline.arrRef spec0 0)) (iblk0 V c 1 t) (V c (Pipeline.arrRef spec0 1)) j (((cfg0.win 2).blk t).view.emb j) (fun q => ?_) (fun q => ?_)
  · show V c (Pipeline.arrRef spec0 0) (((cfg0.win 0).blk t).view.emb (ix2 (j 0 : Fin 10000) q)) = _
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * q.val = q.val
      omega
  · show V c (Pipeline.arrRef spec0 1) (((cfg0.win 1).blk t).view.emb (ix2 q (j 1 : Fin 64))) = _
    refine congrArg _ (funext fun a => Fin.ext ?_)
    match a with
    | ⟨0, _⟩ =>
      show win0_1.index t (0 : Fin 2) * 128 + 1 * q.val = q.val
      omega
    | ⟨1, _⟩ =>
      show win0_1.index t (1 : Fin 2) * 64 + 1 * (j 1).val = win0_2.index t (1 : Fin 2) * 64 + 1 * (j 1).val
      omega

/-- An index of the output is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Every index of the output lies in the block of the point that holds its row. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after the region is the product of the two arrays the region reads, as the reference's host
    product spells it. -/
theorem region0 (c : Dev nD) : (dat0 V c).arrAt 2 cfg0.N
    = Cert.Gcn.mulIn (F := Ideal) (V c (Pipeline.arrRef spec0 0)) (V c (Pipeline.arrRef spec0 1)) :=
  ((dat0 V c).arrAt_eq_of_cover 2 (mm 100000 128 64 (V c (Pipeline.arrRef spec0 0)) (V c (Pipeline.arrRef spec0 1)))
    (fun t _ => flushed0 V c t) (cover0)).trans
    (mm_host (V c (Pipeline.arrRef spec0 0)) (V c (Pipeline.arrRef spec0 1))).symm

end Cert.KernelIdeal.Tiles

end
-- ==== Proof.Region1.lean ====
/-
  Region 1 of the idealized kernel as one function of the two arrays it reads.

  The region adds a [1, 64] row to every row of a [100000, 64] array and applies the rectifier, 10000 rows at a grid point:
  point t loads rows t * 10000 .. t * 10000 + 9999 of the array and the whole row, and writes the [10000, 64] result back as the same
  rows of the output.  Entry (r, c) of the result depends on entry (r, c) of the array and entry (0, c) of the row only,
  so each block written is the matching block of the whole result, and the 10 blocks cover the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks. -/
theorem pay1 (x0 : Vec Ideal S10000x64 .f32) (x1 : Vec Ideal S1x64 .f32) : k1_pay1 x0 x1 = rowAddRect 10000 64 x0 x1 := by
  funext j
  unfold k1_pay1
  show max ((shapeCast S10000x64 x0 shapeCasts_S10000x64_S10000x64) j
      + broadcastTo S10000x64 (shapeCast S1x64 x1 shapeCasts_S1x64_S1x64) broadcasts_S1x64_S10000x64 j) (Ideal.ofBits .f32 0x00000000#32)
    = max (x0 j + x1 (ix2 (0 : Fin 1) (j 1 : Fin 64))) 0
  rw [shapeCast_self, row_repeated, Ideal.ofBits_zero_f32]

/-- The reference's spelling of the same function. -/
theorem spelled1 (a : Cert.Gcn.FA Ideal Cert.ReferenceIdeal.S100000x64) (b : Cert.Gcn.FA Ideal Cert.ReferenceIdeal.S1x64) :
    Cert.Gcn.rect (F := Ideal) (Cert.Gcn.biasedRow (F := Ideal) a b) = rowAddRect 100000 64 a b := by
  funext i
  show max (a i + broadcastInDim Cert.ReferenceIdeal.S100000x64 ![0, 1] Cert.ReferenceIdeal.Facts₀.bcast_S1x64_S100000x64_0_1 b i) (Ideal.ofBits .f32 0x00000000#32)
    = max (a i + b (ix2 (0 : Fin 1) (i 1 : Fin 64))) 0
  rw [rowBroadcast, Ideal.ofBits_zero_f32]

/-- The printed index maps over the grid: the first input's block and the output block are the point's rows, every other
    block index is zero. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every block of rows is some point's. -/
theorem idx_onto1 : ∀ (q0 : Fin 10), ∃ t : Fin cfg1.N, win1_2.index t = ![q0.val, 0] :=
  (by decide +kernel : ∀ (q0 : Fin 10), ∃ t : Fin grid1.N, win1_2.index t = ![q0.val, 0])

/-- What point t writes back is block t of the whole result. -/
theorem flushed1 (c : Dev nD) (t : Fin cfg1.N) :
    (dat1 V c).flushed 2 t = ((cfg1.win 2).blk t).view.read (Elt Ideal)
      (rowAddRect 100000 64 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  rw [pay1]
  obtain ⟨e0, e1, e2, e3, e4⟩ := idx_facts1 t
  funext j
  show rowAddRect 10000 64 (iblk1 V c 0 t) (iblk1 V c 1 t) j
    = rowAddRect 100000 64 (V c (Pipeline.arrRef spec1 0)) (V c (Pipeline.arrRef spec1 1)) (((cfg1.win 2).blk t).view.emb j)
  refine rowAddRect_at (iblk1 V c 0 t) (V c (Pipeline.arrRef spec1 0)) (iblk1 V c 1 t) (V c (Pipeline.arrRef spec1 1)) j (((cfg1.win 2).blk t).view.emb j) ?_ ?_
  · show V c (Pipeline.arrRef spec1 0) (((cfg1.win 0).blk t).view.emb j) = _
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 64 + 1 * (j 1).val = win1_2.index t (1 : Fin 2) * 64 + 1 * (j 1).val
      omega
  · show V c (Pipeline.arrRef spec1 1) (((cfg1.win 1).blk t).view.emb (ix2 (0 : Fin 1) (j 1 : Fin 64))) = _
    refine congrArg _ (funext fun a => Fin.ext ?_)
    match a with
    | ⟨0, _⟩ =>
      show win1_1.index t (0 : Fin 2) * 1 + 1 * (0 : Fin 1).val = (0 : Fin 1).val
      omega
    | ⟨1, _⟩ =>
      show win1_1.index t (1 : Fin 2) * 64 + 1 * (j 1).val = win1_2.index t (1 : Fin 2) * 64 + 1 * (j 1).val
      omega

/-- An index of the output is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Every index of the output lies in the block of the point that holds its row. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- The output array after the region, as the reference's host operations spell the same function of the two arrays
    the region reads. -/
theorem region1 (c : Dev nD) : (dat1 V c).arrAt 2 cfg1.N
    = Cert.Gcn.rect (F := Ideal) (Cert.Gcn.biasedRow (F := Ideal) (V c (Pipeline.arrRef spec1 0)) (V c (Pipeline.arrRef spec1 1))) :=
  ((dat1 V c).arrAt_eq_of_cover 2 (rowAddRect 100000 64 (V c (Pipeline.arrRef spec1 0)) (V c (Pipeline.arrRef spec1 1)))
    (fun t _ => flushed1 V c t) (cover1)).trans
    (spelled1 (V c (Pipeline.arrRef spec1 0)) (V c (Pipeline.arrRef spec1 1))).symm

end Cert.KernelIdeal.Tiles

end
-- ==== Proof.Region2.lean ====
/-
  Region 2 of the idealized kernel as one function of the two arrays it reads.

  The region multiplies the [100000, 64] array by the [64, 64] array, 10000 rows at a grid point: point t loads rows
  t * 10000 .. t * 10000 + 9999 of the left array and the whole right array, narrows both to bf16 (the identity on extended
  reals), multiplies them into a zero accumulator and writes the [10000, 64] product back as the same rows of the output.
  Entry (r, c) of a product depends on row r of the left factor and column c of the right one only, so each block
  written is the matching block of the whole product, and the 10 blocks cover the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks is the matrix product of the blocks. -/
theorem pay2 (x0 : Vec Ideal S10000x64 .f32) (x1 : Vec Ideal S64x64 .f32) : k2_pay1 x0 x1 = mm 10000 64 64 x0 x1 := by
  unfold k2_pay1
  dsimp only
  rw [shapeCast_self]
  exact mm_kernel_bf16 x0 x1 bitsLt_bf16_f32

/-- The printed index maps over the grid: the first input's block and the output block are the point's rows, every other
    block index is zero. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every block of rows is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

/-- What point t writes back is block t of the whole product. -/
theorem flushed2 (c : Dev nD) (t : Fin cfg2.N) :
    (dat2 V c).flushed 2 t = ((cfg2.win 2).blk t).view.read (Elt Ideal)
      (mm 100000 64 64 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  rw [pay2]
  obtain ⟨e0, e1, e2, e3, e4⟩ := idx_facts2 t
  funext j
  show mm 10000 64 64 (iblk2 V c 0 t) (iblk2 V c 1 t) j
    = mm 100000 64 64 (V c (Pipeline.arrRef spec2 0)) (V c (Pipeline.arrRef spec2 1)) (((cfg2.win 2).blk t).view.emb j)
  refine mm_at (iblk2 V c 0 t) (V c (Pipeline.arrRef spec2 0)) (iblk2 V c 1 t) (V c (Pipeline.arrRef spec2 1)) j (((cfg2.win 2).blk t).view.emb j) (fun q => ?_) (fun q => ?_)
  · show V c (Pipeline.arrRef spec2 0) (((cfg2.win 0).blk t).view.emb (ix2 (j 0 : Fin 10000) q)) = _
    refine congrArg _ (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * q.val = q.val
      omega
  · show V c (Pipeline.arrRef spec2 1) (((cfg2.win 1).blk t).view.emb (ix2 q (j 1 : Fin 64))) = _
    refine congrArg _ (funext fun a => Fin.ext ?_)
    match a with
    | ⟨0, _⟩ =>
      show win2_1.index t (0 : Fin 2) * 64 + 1 * q.val = q.val
      omega
    | ⟨1, _⟩ =>
      show win2_1.index t (1 : Fin 2) * 64 + 1 * (j 1).val = win2_2.index t (1 : Fin 2) * 64 + 1 * (j 1).val
      omega

/-- An index of the output is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v48).slice (win2_2.rect t)).set ↔ _
  rw [View.set_slice_whole, Rect.mem_set_unit]
  exact Iff.rfl

/-- Every index of the output lies in the block of the point that holds its row. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The output array after the region is the product of the two arrays the region reads, as the reference's host
    product spells it. -/
theorem region2 (c : Dev nD) : (dat2 V c).arrAt 2 cfg2.N
    = Cert.Gcn.mulHid (F := Ideal) (V c (Pipeline.arrRef spec2 0)) (V c (Pipeline.arrRef spec2 1)) :=
  ((dat2 V c).arrAt_eq_of_cover 2 (mm 100000 64 64 (V c (Pipeline.arrRef spec2 0)) (V c (Pipeline.arrRef spec2 1)))
    (fun t _ => flushed2 V c t) (cover2)).trans
    (mm_host (V c (Pipeline.arrRef spec2 0)) (V c (Pipeline.arrRef spec2 1))).symm

end Cert.KernelIdeal.Tiles

end
-- ==== Proof.Region3.lean ====
/-
  Region 3 of the idealized kernel as one function of the two arrays it reads.

  The region adds a [1, 64] row to every row of a [100000, 64] array and applies the rectifier, 10000 rows at a grid point:
  point t loads rows t * 10000 .. t * 10000 + 9999 of the array and the whole row, and writes the [10000, 64] result back as the same
  rows of the output.  Entry (r, c) of the result depends on entry (r, c) of the array and entry (0, c) of the row only,
  so each block written is the matching block of the whole result, and the 10 blocks cover the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks. -/
theorem pay3 (x0 : Vec Ideal S10000x64 .f32) (x1 : Vec Ideal S1x64 .f32) : k3_pay1 x0 x1 = rowAddRect 10000 64 x0 x1 := by
  funext j
  unfold k3_pay1
  show max ((shapeCast S10000x64 x0 shapeCasts_S10000x64_S10000x64) j
      + broadcastTo S10000x64 (shapeCast S1x64 x1 shapeCasts_S1x64_S1x64) broadcasts_S1x64_S10000x64 j) (Ideal.ofBits .f32 0x00000000#32)
    = max (x0 j + x1 (ix2 (0 : Fin 1) (j 1 : Fin 64))) 0
  rw [shapeCast_self, row_repeated, Ideal.ofBits_zero_f32]

/-- The reference's spelling of the same function. -/
theorem spelled3 (a : Cert.Gcn.FA Ideal Cert.ReferenceIdeal.S100000x64) (b : Cert.Gcn.FA Ideal Cert.ReferenceIdeal.S1x64) :
    Cert.Gcn.rect (F := Ideal) (Cert.Gcn.biasedRow (F := Ideal) a b) = rowAddRect 100000 64 a b := by
  funext i
  show max (a i + broadcastInDim Cert.ReferenceIdeal.S100000x64 ![0, 1] Cert.ReferenceIdeal.Facts₀.bcast_S1x64_S100000x64_0_1 b i) (Ideal.ofBits .f32 0x00000000#32)
    = max (a i + b (ix2 (0 : Fin 1) (i 1 : Fin 64))) 0
  rw [rowBroadcast, Ideal.ofBits_zero_f32]

/-- The printed index maps over the grid: the first input's block and the output block are the point's rows, every other
    block index is zero. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every block of rows is some point's. -/
theorem idx_onto3 : ∀ (q0 : Fin 10), ∃ t : Fin cfg3.N, win3_2.index t = ![q0.val, 0] :=
  (by decide +kernel : ∀ (q0 : Fin 10), ∃ t : Fin grid3.N, win3_2.index t = ![q0.val, 0])

/-- What point t writes back is block t of the whole result. -/
theorem flushed3 (c : Dev nD) (t : Fin cfg3.N) :
    (dat3 V c).flushed 2 t = ((cfg3.win 2).blk t).view.read (Elt Ideal)
      (rowAddRect 100000 64 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  rw [pay3]
  obtain ⟨e0, e1, e2, e3, e4⟩ := idx_facts3 t
  funext j
  show rowAddRect 10000 64 (iblk3 V c 0 t) (iblk3 V c 1 t) j
    = rowAddRect 100000 64 (V c (Pipeline.arrRef spec3 0)) (V c (Pipeline.arrRef spec3 1)) (((cfg3.win 2).blk t).view.emb j)
  refine rowAddRect_at (iblk3 V c 0 t) (V c (Pipeline.arrRef spec3 0)) (iblk3 V c 1 t) (V c (Pipeline.arrRef spec3 1)) j (((cfg3.win 2).blk t).view.emb j) ?_ ?_
  · show V c (Pipeline.arrRef spec3 0) (((cfg3.win 0).blk t).view.emb j) = _
    refine congrArg _ (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 64 + 1 * (j 1).val = win3_2.index t (1 : Fin 2) * 64 + 1 * (j 1).val
      omega
  · show V c (Pipeline.arrRef spec3 1) (((cfg3.win 1).blk t).view.emb (ix2 (0 : Fin 1) (j 1 : Fin 64))) = _
    refine congrArg _ (funext fun a => Fin.ext ?_)
    match a with
    | ⟨0, _⟩ =>
      show win3_1.index t (0 : Fin 2) * 1 + 1 * (0 : Fin 1).val = (0 : Fin 1).val
      omega
    | ⟨1, _⟩ =>
      show win3_1.index t (1 : Fin 2) * 64 + 1 * (j 1).val = win3_2.index t (1 : Fin 2) * 64 + 1 * (j 1).val
      omega

/-- An index of the output is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v63).slice (win3_2.rect t)).set ↔ _
  rw [View.set_slice_whole, Rect.mem_set_unit]
  exact Iff.rfl

/-- Every index of the output lies in the block of the point that holds its row. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- The output array after the region, as the reference's host operations spell the same function of the two arrays
    the region reads. -/
theorem region3 (c : Dev nD) : (dat3 V c).arrAt 2 cfg3.N
    = Cert.Gcn.rect (F := Ideal) (Cert.Gcn.biasedRow (F := Ideal) (V c (Pipeline.arrRef spec3 0)) (V c (Pipeline.arrRef spec3 1))) :=
  ((dat3 V c).arrAt_eq_of_cover 2 (rowAddRect 100000 64 (V c (Pipeline.arrRef spec3 0)) (V c (Pipeline.arrRef spec3 1)))
    (fun t _ => flushed3 V c t) (cover3)).trans
    (spelled3 (V c (Pipeline.arrRef spec3 0)) (V c (Pipeline.arrRef spec3 1))).symm

end Cert.KernelIdeal.Tiles

end
-- ==== Proof.Region4.lean ====
/-
  Region 4 of the idealized kernel as one function of the two arrays it reads.

  The region multiplies the [100000, 64] array by the [64, 64] array, 10000 rows at a grid point: point t loads rows
  t * 10000 .. t * 10000 + 9999 of the left array and the whole right array, narrows both to bf16 (the identity on extended
  reals), multiplies them into a zero accumulator and writes the [10000, 64] product back as the same rows of the output.
  Entry (r, c) of a product depends on row r of the left factor and column c of the right one only, so each block
  written is the matching block of the whole product, and the 10 blocks cover the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks is the matrix product of the blocks. -/
theorem pay4 (x0 : Vec Ideal S10000x64 .f32) (x1 : Vec Ideal S64x64 .f32) : k4_pay1 x0 x1 = mm 10000 64 64 x0 x1 := by
  unfold k4_pay1
  dsimp only
  rw [shapeCast_self]
  exact mm_kernel_bf16 x0 x1 bitsLt_bf16_f32

/-- The printed index maps over the grid: the first input's block and the output block are the point's rows, every other
    block index is zero. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every block of rows is some point's. -/
theorem idx_onto4 : ∀ (q0 : Fin 10), ∃ t : Fin cfg4.N, win4_2.index t = ![q0.val, 0] :=
  (by decide +kernel : ∀ (q0 : Fin 10), ∃ t : Fin grid4.N, win4_2.index t = ![q0.val, 0])

/-- What point t writes back is block t of the whole product. -/
theorem flushed4 (c : Dev nD) (t : Fin cfg4.N) :
    (dat4 V c).flushed 2 t = ((cfg4.win 2).blk t).view.read (Elt Ideal)
      (mm 100000 64 64 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  rw [pay4]
  obtain ⟨e0, e1, e2, e3, e4⟩ := idx_facts4 t
  funext j
  show mm 10000 64 64 (iblk4 V c 0 t) (iblk4 V c 1 t) j
    = mm 100000 64 64 (V c (Pipeline.arrRef spec4 0)) (V c (Pipeline.arrRef spec4 1)) (((cfg4.win 2).blk t).view.emb j)
  refine mm_at (iblk4 V c 0 t) (V c (Pipeline.arrRef spec4 0)) (iblk4 V c 1 t) (V c (Pipeline.arrRef spec4 1)) j (((cfg4.win 2).blk t).view.emb j) (fun q => ?_) (fun q => ?_)
  · show V c (Pipeline.arrRef spec4 0) (((cfg4.win 0).blk t).view.emb (ix2 (j 0 : Fin 10000) q)) = _
    refine congrArg _ (funext fun a => Fin.ext ?_)
    match a with
    | ⟨0, _⟩ =>
      show win4_0.index t (0 : Fin 2) * 10000 + 1 * (j 0).val = win4_2.index t (0 : Fin 2) * 10000 + 1 * (j 0).val
      omega
    | ⟨1, _⟩ =>
      show win4_0.index t (1 : Fin 2) * 64 + 1 * q.val = q.val
      omega
  · show V c (Pipeline.arrRef spec4 1) (((cfg4.win 1).blk t).view.emb (ix2 q (j 1 : Fin 64))) = _
    refine congrArg _ (funext fun a => Fin.ext ?_)
    match a with
    | ⟨0, _⟩ =>
      show win4_1.index t (0 : Fin 2) * 64 + 1 * q.val = q.val
      omega
    | ⟨1, _⟩ =>
      show win4_1.index t (1 : Fin 2) * 64 + 1 * (j 1).val = win4_2.index t (1 : Fin 2) * 64 + 1 * (j 1).val
      omega

/-- An index of the output is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v64).slice (win4_2.rect t)).set ↔ _
  rw [View.set_slice_whole, Rect.mem_set_unit]
  exact Iff.rfl

/-- Every index of the output lies in the block of the point that holds its row. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 64 ≤ (i 1).val ∧ (i 1).val < win4_2.index t (1 : Fin 2) * 64 + 64
    omega

/-- The output array after the region is the product of the two arrays the region reads, as the reference's host
    product spells it. -/
theorem region4 (c : Dev nD) : (dat4 V c).arrAt 2 cfg4.N
    = Cert.Gcn.mulHid (F := Ideal) (V c (Pipeline.arrRef spec4 0)) (V c (Pipeline.arrRef spec4 1)) :=
  ((dat4 V c).arrAt_eq_of_cover 2 (mm 100000 64 64 (V c (Pipeline.arrRef spec4 0)) (V c (Pipeline.arrRef spec4 1)))
    (fun t _ => flushed4 V c t) (cover4)).trans
    (mm_host (V c (Pipeline.arrRef spec4 0)) (V c (Pipeline.arrRef spec4 1))).symm

end Cert.KernelIdeal.Tiles

end
-- ==== Proof.Region5.lean ====
/-
  Region 5 of the idealized kernel as one function of the two arrays it reads.

  The region adds a [1, 64] row to every row of a [100000, 64] array, 10000 rows at a grid point:
  point t loads rows t * 10000 .. t * 10000 + 9999 of the array and the whole row, and writes the [10000, 64] result back as the same
  rows of the output.  Entry (r, c) of the result depends on entry (r, c) of the array and entry (0, c) of the row only,
  so each block written is the matching block of the whole result, and the 10 blocks cover the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks. -/
theorem pay5 (x0 : Vec Ideal S10000x64 .f32) (x1 : Vec Ideal S1x64 .f32) : k5_pay1 x0 x1 = rowAdd 10000 64 x0 x1 := by
  funext j
  unfold k5_pay1
  show ((shapeCast S10000x64 x0 shapeCasts_S10000x64_S10000x64) j
      + broadcastTo S10000x64 (shapeCast S1x64 x1 shapeCasts_S1x64_S1x64) broadcasts_S1x64_S10000x64 j)
    = x0 j + x1 (ix2 (0 : Fin 1) (j 1 : Fin 64))
  rw [shapeCast_self, row_repeated]

/-- The reference's spelling of the same function. -/
theorem spelled5 (a : Cert.Gcn.FA Ideal Cert.ReferenceIdeal.S100000x64) (b : Cert.Gcn.FA Ideal Cert.ReferenceIdeal.S1x64) :
    Cert.Gcn.biasedRow (F := Ideal) a b = rowAdd 100000 64 a b := by
  funext i
  show (a i + broadcastInDim Cert.ReferenceIdeal.S100000x64 ![0, 1] Cert.ReferenceIdeal.Facts₀.bcast_S1x64_S100000x64_0_1 b i)
    = a i + b (ix2 (0 : Fin 1) (i 1 : Fin 64))
  rw [rowBroadcast]

/-- The printed index maps over the grid: the first input's block and the output block are the point's rows, every other
    block index is zero. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every block of rows is some point's. -/
theorem idx_onto5 : ∀ (q0 : Fin 10), ∃ t : Fin cfg5.N, win5_2.index t = ![q0.val, 0] :=
  (by decide +kernel : ∀ (q0 : Fin 10), ∃ t : Fin grid5.N, win5_2.index t = ![q0.val, 0])

/-- What point t writes back is block t of the whole result. -/
theorem flushed5 (c : Dev nD) (t : Fin cfg5.N) :
    (dat5 V c).flushed 2 t = ((cfg5.win 2).blk t).view.read (Elt Ideal)
      (rowAdd 100000 64 (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  rw [pay5]
  obtain ⟨e0, e1, e2, e3, e4⟩ := idx_facts5 t
  funext j
  show rowAdd 10000 64 (iblk5 V c 0 t) (iblk5 V c 1 t) j
    = rowAdd 100000 64 (V c (Pipeline.arrRef spec5 0)) (V c (Pipeline.arrRef spec5 1)) (((cfg5.win 2).blk t).view.emb j)
  refine rowAdd_at (iblk5 V c 0 t) (V c (Pipeline.arrRef spec5 0)) (iblk5 V c 1 t) (V c (Pipeline.arrRef spec5 1)) j (((cfg5.win 2).blk t).view.emb j) ?_ ?_
  · show V c (Pipeline.arrRef spec5 0) (((cfg5.win 0).blk t).view.emb j) = _
    refine congrArg _ (funext fun a => Fin.ext ?_)
    match a with
    | ⟨0, _⟩ =>
      show win5_0.index t (0 : Fin 2) * 10000 + 1 * (j 0).val = win5_2.index t (0 : Fin 2) * 10000 + 1 * (j 0).val
      omega
    | ⟨1, _⟩ =>
      show win5_0.index t (1 : Fin 2) * 64 + 1 * (j 1).val = win5_2.index t (1 : Fin 2) * 64 + 1 * (j 1).val
      omega
  · show V c (Pipeline.arrRef spec5 1) (((cfg5.win 1).blk t).view.emb (ix2 (0 : Fin 1) (j 1 : Fin 64))) = _
    refine congrArg _ (funext fun a => Fin.ext ?_)
    match a with
    | ⟨0, _⟩ =>
      show win5_1.index t (0 : Fin 2) * 1 + 1 * (0 : Fin 1).val = (0 : Fin 1).val
      omega
    | ⟨1, _⟩ =>
      show win5_1.index t (1 : Fin 2) * 64 + 1 * (j 1).val = win5_2.index t (1 : Fin 2) * 64 + 1 * (j 1).val
      omega

/-- An index of the output is in point t's block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v79).slice (win5_2.rect t)).set ↔ _
  rw [View.set_slice_whole, Rect.mem_set_unit]
  exact Iff.rfl

/-- Every index of the output lies in the block of the point that holds its row. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := idx_onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 64 ≤ (i 1).val ∧ (i 1).val < win5_2.index t (1 : Fin 2) * 64 + 64
    omega

/-- The output array after the region, as the reference's host operations spell the same function of the two arrays
    the region reads. -/
theorem region5 (c : Dev nD) : (dat5 V c).arrAt 2 cfg5.N
    = Cert.Gcn.biasedRow (F := Ideal) (V c (Pipeline.arrRef spec5 0)) (V c (Pipeline.arrRef spec5 1)) :=
  ((dat5 V c).arrAt_eq_of_cover 2 (rowAdd 100000 64 (V c (Pipeline.arrRef spec5 0)) (V c (Pipeline.arrRef spec5 1)))
    (fun t _ => flushed5 V c t) (cover5)).trans
    (spelled5 (V c (Pipeline.arrRef spec5 0)) (V c (Pipeline.arrRef spec5 1))).symm

end Cert.KernelIdeal.Tiles

end
-- ==== Proof.Region6.lean ====
/-
  Region 6 of the idealized kernel as one function of the two arrays it reads.

  The region multiplies the [1000, 64] array by the [64, 1] array, 1000 rows at a grid point: point t loads rows
  t * 1000 .. t * 1000 + 999 of the left array and the whole right array, narrows both to bf16 (the identity on extended
  reals), multiplies them into a zero accumulator and writes the [1000, 1] product back as the same rows of the output.
  Entry (r, c) of a product depends on row r of the left factor and column c of the right one only, so each block
  written is the matching block of the whole product, and the 1 block covers the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks is the matrix product of the blocks. -/
theorem pay6 (x0 : Vec Ideal S1000x64 .f32) (x1 : Vec Ideal S64x1 .f32) : k6_pay1 x0 x1 = mm 1000 64 1 x0 x1 := by
  unfold k6_pay1
  dsimp only
  rw [shapeCast_self]
  exact mm_kernel_bf16 x0 x1 bitsLt_bf16_f32

/-- The printed index maps over the grid: the first input's block and the output block are the point's rows, every other
    block index is zero. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every block of rows is some point's. -/
theorem idx_onto6 : ∀ (q0 : Fin 1), ∃ t : Fin cfg6.N, win6_2.index t = ![q0.val, 0] :=
  (by decide +kernel : ∀ (q0 : Fin 1), ∃ t : Fin grid6.N, win6_2.index t = ![q0.val, 0])

/-- What point t writes back is block t of the whole product. -/
theorem flushed6 (c : Dev nD) (t : Fin cfg6.N) :
    (dat6 V c).flushed 2 t = ((cfg6.win 2).blk t).view.read (Elt Ideal)
      (mm 1000 64 1 (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S1000x64) hz, View.ld_unit_zero (S := S64x1) hz]
  rw [pay6]
  obtain ⟨e0, e1, e2, e3, e4⟩ := idx_facts6 t
  funext j
  show mm 1000 64 1 (iblk6 V c 0 t) (iblk6 V c 1 t) j
    = mm 1000 64 1 (V c (Pipeline.arrRef spec6 0)) (V c (Pipeline.arrRef spec6 1)) (((cfg6.win 2).blk t).view.emb j)
  refine mm_at (iblk6 V c 0 t) (V c (Pipeline.arrRef spec6 0)) (iblk6 V c 1 t) (V c (Pipeline.arrRef spec6 1)) j (((cfg6.win 2).blk t).view.emb j) (fun q => ?_) (fun q => ?_)
  · show V c (Pipeline.arrRef spec6 0) (((cfg6.win 0).blk t).view.emb (ix2 (j 0 : Fin 1000) q)) = _
    refine congrArg _ (funext fun a => Fin.ext ?_)
    match a with
    | ⟨0, _⟩ =>
      show win6_0.index t (0 : Fin 2) * 1000 + 1 * (j 0).val = win6_2.index t (0 : Fin 2) * 1000 + 1 * (j 0).val
      omega
    | ⟨1, _⟩ =>
      show win6_0.index t (1 : Fin 2) * 64 + 1 * q.val = q.val
      omega
  · show V c (Pipeline.arrRef spec6 1) (((cfg6.win 1).blk t).view.emb (ix2 q (j 1 : Fin 1))) = _
    refine congrArg _ (funext fun a => Fin.ext ?_)
    match a with
    | ⟨0, _⟩ =>
      show win6_1.index t (0 : Fin 2) * 64 + 1 * q.val = q.val
      omega
    | ⟨1, _⟩ =>
      show win6_1.index t (1 : Fin 2) * 1 + 1 * (j 1).val = win6_2.index t (1 : Fin 2) * 1 + 1 * (j 1).val
      omega

/-- An index of the output is in point t's block iff each coordinate is in the block's range on its axis. -/
theorem mem_blk6 (t : Fin cfg6.N) (i : S1000x1.Idx) :
    i ∈ ((cfg6.win 2).blk t).view.set ↔ ∀ a : Fin 2, win6_2.index t a * S1000x1.size a ≤ (i a).val
      ∧ (i a).val < win6_2.index t a * S1000x1.size a + S1000x1.size a := by
  show i ∈ ((View.whole main_v92).slice (win6_2.rect t)).set ↔ _
  rw [View.set_slice_whole, Rect.mem_set_unit]
  exact Iff.rfl

/-- Every index of the output lies in the block of the point that holds its row. -/
theorem cover6 (i : S1000x1.Idx) :
    ∃ t : Fin cfg6.N, (cfg6.win 2).flush t = true ∧ i ∈ ((cfg6.win 2).blk t).view.set := by
  have hi0 : (i 0).val < 1000 := (i 0).isLt
  have hi1 : (i 1).val < 1 := (i 1).isLt
  obtain ⟨t, ht⟩ := idx_onto6 ⟨(i 0).val / 1000, by omega⟩
  have q0 : win6_2.index t (0 : Fin 2) = (i 0).val / 1000 := congrFun ht 0
  have q1 : win6_2.index t (1 : Fin 2) = 0 := congrFun ht 1
  refine ⟨t, flush6_2 t, ?_⟩
  rw [mem_blk6]
  intro a
  match a with
  | ⟨0, _⟩ =>
    show win6_2.index t (0 : Fin 2) * 1000 ≤ (i 0).val ∧ (i 0).val < win6_2.index t (0 : Fin 2) * 1000 + 1000
    omega
  | ⟨1, _⟩ =>
    show win6_2.index t (1 : Fin 2) * 1 ≤ (i 1).val ∧ (i 1).val < win6_2.index t (1 : Fin 2) * 1 + 1
    omega

/-- The output array after the region is the product of the two arrays the region reads, as the reference's host
    product spells it. -/
theorem region6 (c : Dev nD) : (dat6 V c).arrAt 2 cfg6.N
    = Cert.Gcn.mulOut (F := Ideal) (V c (Pipeline.arrRef spec6 0)) (V c (Pipeline.arrRef spec6 1)) :=
  ((dat6 V c).arrAt_eq_of_cover 2 (mm 1000 64 1 (V c (Pipeline.arrRef spec6 0)) (V c (Pipeline.arrRef spec6 1)))
    (fun t _ => flushed6 V c t) (cover6)).trans
    (mm_host (V c (Pipeline.arrRef spec6 0)) (V c (Pipeline.arrRef spec6 1))).symm

end Cert.KernelIdeal.Tiles

end
-- ==== Proof.Region7.lean ====
/-
  Region 7 of the idealized kernel as one function of the two arrays it reads.

  The region adds a [1, 1] row to every row of a [1000, 1] array, 1000 rows at a grid point:
  point t loads rows t * 1000 .. t * 1000 + 999 of the array and the whole row, and writes the [1000, 1] result back as the same
  rows of the output.  Entry (r, c) of the result depends on entry (r, c) of the array and entry (0, c) of the row only,
  so each block written is the matching block of the whole result, and the 1 block covers the output.
-/
import proofs.«117345_j46729244181042_1_alg».proof.Proof.Gen.KernelIdeal.Frame
import proofs.«117345_j46729244181042_1_alg».proof.Proof.GcnSpec
import proofs.«117345_j46729244181042_1_alg».proof.Proof.TileLemmas

set_option maxRecDepth 16384

noncomputable section

open scoped BigOperators

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGraphLayers

variable [Cert.ReferenceIdeal.Facts]
variable (V : (c : Dev nD) → (b : Ref sig .tc) → Buf (Elt Ideal) ((c : Thread nD τ).loc b))

/-- The body's arithmetic on its two loaded blocks. -/
theorem pay7 (x0 : Vec Ideal S1000x1 .f32) (x1 : Vec Ideal S1x1 .f32) : k7_pay1 x0 x1 = rowAdd 1000 1 x0 x1 := by
  funext j
  unfold k7_pay1
  show ((shapeCast S1000x1 x0 shapeCasts_S1000x1_S1000x1) j
      + broadcastTo S1000x1 (shapeCast S1x1 x1 shapeCasts_S1x1_S1x1) broadcasts_S1x1_S1000x1 j)
    = x0 j + x1 (ix2 (0 : Fin 1) (j 1 : Fin 1))
  rw [shapeCast_self, row_repeated]

/-- The reference's spelling of the same function. -/
theorem spelled7 (a : Cert.Gcn.FA Ideal Cert.ReferenceIdeal.S1000x1) (b : Cert.Gcn.FA Ideal Cert.ReferenceIdeal.S1x1) :
    Cert.Gcn.shiftedRow (F := Ideal) a b = rowAdd 1000 1 a b := by
  funext i
  show (a i + broadcastInDim Cert.ReferenceIdeal.S1000x1 ![0, 1] Cert.ReferenceIdeal.Facts₀.bcast_S1x1_S1000x1_0_1 b i)
    = a i + b (ix2 (0 : Fin 1) (i 1 : Fin 1))
  rw [rowBroadcast]

/-- The printed index maps over the grid: the first input's block and the output block are the point's rows, every other
    block index is zero. -/
theorem idx_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0 :=
  (by decide +kernel : ∀ t : Fin grid7.N, _)

/-- Every block of rows is some point's. -/
theorem idx_onto7 : ∀ (q0 : Fin 1), ∃ t : Fin cfg7.N, win7_2.index t = ![q0.val, 0] :=
  (by decide +kernel : ∀ (q0 : Fin 1), ∃ t : Fin grid7.N, win7_2.index t = ![q0.val, 0])

/-- What point t writes back is block t of the whole result. -/
theorem flushed7 (c : Dev nD) (t : Fin cfg7.N) :
    (dat7 V c).flushed 2 t = ((cfg7.win 2).blk t).view.read (Elt Ideal)
      (rowAdd 1000 1 (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S1000x1) hz, View.ld_unit_zero (S := S1x1) hz]
  rw [pay7]
  obtain ⟨e0, e1, e2, e3, e4⟩ := idx_facts7 t
  funext j
  show rowAdd 1000 1 (iblk7 V c 0 t) (iblk7 V c 1 t) j
    = rowAdd 1000 1 (V c (Pipeline.arrRef spec7 0)) (V c (Pipeline.arrRef spec7 1)) (((cfg7.win 2).blk t).view.emb j)
  refine rowAdd_at (iblk7 V c 0 t) (V c (Pipeline.arrRef spec7 0)) (iblk7 V c 1 t) (V c (Pipeline.arrRef spec7 1)) j (((cfg7.win 2).blk t).view.emb j) ?_ ?_
  · show V c (Pipeline.arrRef spec7 0) (((cfg7.win 0).blk t).view.emb j) = _
    refine congrArg _ (funext fun a => Fin.ext ?_)
    match a with
    | ⟨0, _⟩ =>
      show win7_0.index t (0 : Fin 2) * 1000 + 1 * (j 0).val = win7_2.index t (0 : Fin 2) * 1000 + 1 * (j 0).val
      omega
    | ⟨1, _⟩ =>
      show win7_0.index t (1 : Fin 2) * 1 + 1 * (j 1).val = win7_2.index t (1 : Fin 2) * 1 + 1 * (j 1).val
      omega
  · show V c (Pipeline.arrRef spec7 1) (((cfg7.win 1).blk t).view.emb (ix2 (0 : Fin 1) (j 1 : Fin 1))) = _
    refine congrArg _ (funext fun a => Fin.ext ?_)
    match a with
    | ⟨0, _⟩ =>
      show win7_1.index t (0 : Fin 2) * 1 + 1 * (0 : Fin 1).val = (0 : Fin 1).val
      omega
    | ⟨1, _⟩ =>
      show win7_1.index t (1 : Fin 2) * 1 + 1 * (j 1).val = win7_2.index t (1 : Fin 2) * 1 + 1 * (j 1).val
      omega

/-- An index of the output is in point t's block iff each coordinate is in the block's range on its axis. -/
theorem mem_blk7 (t : Fin cfg7.N) (i : S1000x1.Idx) :
    i ∈ ((cfg7.win 2).blk t).view.set ↔ ∀ a : Fin 2, win7_2.index t a * S1000x1.size a ≤ (i a).val
      ∧ (i a).val < win7_2.index t a * S1000x1.size a + S1000x1.size a := by
  show i ∈ ((View.whole main_v94).slice (win7_2.rect t)).set ↔ _
  rw [View.set_slice_whole, Rect.mem_set_unit]
  exact Iff.rfl

/-- Every index of the output lies in the block of the point that holds its row. -/
theorem cover7 (i : S1000x1.Idx) :
    ∃ t : Fin cfg7.N, (cfg7.win 2).flush t = true ∧ i ∈ ((cfg7.win 2).blk t).view.set := by
  have hi0 : (i 0).val < 1000 := (i 0).isLt
  have hi1 : (i 1).val < 1 := (i 1).isLt
  obtain ⟨t, ht⟩ := idx_onto7 ⟨(i 0).val / 1000, by omega⟩
  have q0 : win7_2.index t (0 : Fin 2) = (i 0).val / 1000 := congrFun ht 0
  have q1 : win7_2.index t (1 : Fin 2) = 0 := congrFun ht 1
  refine ⟨t, flush7_2 t, ?_⟩
  rw [mem_blk7]
  intro a
  match a with
  | ⟨0, _⟩ =>
    show win7_2.index t (0 : Fin 2) * 1000 ≤ (i 0).val ∧ (i 0).val < win7_2.index t (0 : Fin 2) * 1000 + 1000
    omega
  | ⟨1, _⟩ =>
    show win7_2.index t (1 : Fin 2) * 1 ≤ (i 1).val ∧ (i 1).val < win7_2.index t (1 : Fin 2) * 1 + 1
    omega

/-- The output array after the region, as the reference's host operations spell the same function of the two arrays
    the region reads. -/
theorem region7 (c : Dev nD) : (dat7 V c).arrAt 2 cfg7.N
    = Cert.Gcn.shiftedRow (F := Ideal) (V c (Pipeline.arrRef spec7 0)) (V c (Pipeline.arrRef spec7 1)) :=
  ((dat7 V c).arrAt_eq_of_cover 2 (rowAdd 1000 1 (V c (Pipeline.arrRef spec7 0)) (V c (Pipeline.arrRef spec7 1)))
    (fun t _ => flushed7 V c t) (cover7)).trans
    (spelled7 (V c (Pipeline.arrRef spec7 0)) (V c (Pipeline.arrRef spec7 1))).symm

end Cert.KernelIdeal.Tiles

end
-- ==== Proof.KernelCarry.lean ====
/-
  Names for the arguments and the stages of the network at the kernel's launch contents, and the buffers of the idealized
  kernel that are only carried from one boundary of its run to a later one.

  A stretch of host operations leaves a buffer that none of its operations writes as it was.  A region leaves every buffer
  other than its output array as it was: its two input arrays because nothing of a region writes them back, every other
  buffer because the region does not touch it.  So an argument array holds its launch contents at every boundary, and the
  edge lists and edge weights computed by the first three stretches are still in their buffers when the later stretches
  read them.
-/
import proofs.«117345_j46729244181042_1_alg».proof.Proof.Gen.KernelIdeal.Frame
import proofs.«117345_j46729244181042_1_alg».proof.Proof.GcnSpec
import proofs.«117345_j46729244181042_1_alg».proof.Proof.TileLemmas
import proofs.«117345_j46729244181042_1_alg».proof.Proof.Region0
import proofs.«117345_j46729244181042_1_alg».proof.Proof.Region1
import proofs.«117345_j46729244181042_1_alg».proof.Proof.Region2
import proofs.«117345_j46729244181042_1_alg».proof.Proof.Region3
import proofs.«117345_j46729244181042_1_alg».proof.Proof.Region4
import proofs.«117345_j46729244181042_1_alg».proof.Proof.Region5
import proofs.«117345_j46729244181042_1_alg».proof.Proof.Region6
import proofs.«117345_j46729244181042_1_alg».proof.Proof.Region7
import Idealize.ShloMosaic.Lib.StableHlo.Run

set_option maxRecDepth 16384

noncomputable section

namespace Cert.KernelIdeal.GcnValue

open Cert.KernelIdeal Cert.KernelIdeal.Gen
open Idealize.ShloMosaic Idealize.ShloMosaic.TcCoe Idealize.SL.Sem Idealize.ShloMosaic.StableHlo
open Cert.Gcn (FA IA)

variable [Cert.ReferenceIdeal.Facts]
variable (m : (ℓ : Loc nD τ sig) → Buf (Elt Ideal) ℓ) (ρ : Dev nD → PrngReg)

/-- A buffer that no operation of a stretch writes keeps its contents across the stretch. -/
macro "keep_host" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The arguments and the stages, named -/

abbrev aX (c : Dev nD) : FA Ideal Cert.ReferenceIdeal.S100000x128 := m ((c : Thread nD τ).loc main_arg0)
abbrev aE (c : Dev nD) : IA Ideal Cert.ReferenceIdeal.S2x1600000 := m ((c : Thread nD τ).loc main_arg1)
abbrev aB (c : Dev nD) : IA Ideal Cert.ReferenceIdeal.S100000 := m ((c : Thread nD τ).loc main_arg2)
abbrev aW1 (c : Dev nD) : FA Ideal Cert.ReferenceIdeal.S128x64 := m ((c : Thread nD τ).loc main_arg3)
abbrev ab1 (c : Dev nD) : FA Ideal Cert.ReferenceIdeal.S64 := m ((c : Thread nD τ).loc main_arg4)
abbrev aW2 (c : Dev nD) : FA Ideal Cert.ReferenceIdeal.S64x64 := m ((c : Thread nD τ).loc main_arg5)
abbrev ab2 (c : Dev nD) : FA Ideal Cert.ReferenceIdeal.S64 := m ((c : Thread nD τ).loc main_arg6)
abbrev aW3 (c : Dev nD) : FA Ideal Cert.ReferenceIdeal.S64x64 := m ((c : Thread nD τ).loc main_arg7)
abbrev ab3 (c : Dev nD) : FA Ideal Cert.ReferenceIdeal.S64 := m ((c : Thread nD τ).loc main_arg8)
abbrev aWl (c : Dev nD) : FA Ideal Cert.ReferenceIdeal.S64x1 := m ((c : Thread nD τ).loc main_arg9)
abbrev abl (c : Dev nD) : FA Ideal Cert.ReferenceIdeal.S1 := m ((c : Thread nD τ).loc main_arg10)

/-- The first layer: product, propagation, bias and rectifier. -/
abbrev h1 (c : Dev nD) := Cert.Gcn.mulIn (F := Ideal) (aX m c) (aW1 m c)
abbrev g1 (c : Dev nD) := Cert.Gcn.agg (F := Ideal) (aE m c) (h1 m c)
abbrev r1 (c : Dev nD) := Cert.Gcn.rect (F := Ideal) (Cert.Gcn.biased (g1 m c) (ab1 m c))
/-- The second layer. -/
abbrev h2 (c : Dev nD) := Cert.Gcn.mulHid (F := Ideal) (r1 m c) (aW2 m c)
abbrev g2 (c : Dev nD) := Cert.Gcn.agg (F := Ideal) (aE m c) (h2 m c)
abbrev r2 (c : Dev nD) := Cert.Gcn.rect (F := Ideal) (Cert.Gcn.biased (g2 m c) (ab2 m c))
/-- The third layer, without a rectifier. -/
abbrev h3 (c : Dev nD) := Cert.Gcn.mulHid (F := Ideal) (r2 m c) (aW3 m c)
abbrev g3 (c : Dev nD) := Cert.Gcn.agg (F := Ideal) (aE m c) (h3 m c)
abbrev r3 (c : Dev nD) := Cert.Gcn.biased (F := Ideal) (g3 m c) (ab3 m c)
/-- The pooled rows and the head. -/
abbrev po (c : Dev nD) := Cert.Gcn.pooled (F := Ideal) (aB m c) (r3 m c)
abbrev lo (c : Dev nD) := Cert.Gcn.mulOut (F := Ideal) (po m c) (aWl m c)

/-! ## Buffers that are only carried -/

/-- Argument 0 is written by nothing before boundary 3: there it still holds its launch contents. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = m ((c : Thread nD τ).loc main_arg0) := rfl

/-- Argument 3 is written by nothing before boundary 3: there it still holds its launch contents. -/
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = m ((c : Thread nD τ).loc main_arg3) := rfl

/-- Argument 4 is written by nothing before boundary 4: there it still holds its launch contents. -/
theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = m ((c : Thread nD τ).loc main_arg4) := rfl

/-- Argument 5 is written by nothing before boundary 6: there it still holds its launch contents. -/
theorem arg5_at6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by keep_host hostOps1
    _ = W3 m ρ c (Proc.devRef .tc main_arg5) := W4_of_ne m ρ c main_arg5 (by decide)
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = m ((c : Thread nD τ).loc main_arg5) := rfl

/-- Argument 6 is written by nothing before boundary 7: there it still holds its launch contents. -/
theorem arg6_at7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by keep_host hostOps1
    _ = W3 m ρ c (Proc.devRef .tc main_arg6) := W4_of_ne m ρ c main_arg6 (by decide)
    _ = W2 m ρ c (Proc.devRef .tc main_arg6) := by keep_host hostOps0_2
    _ = W1 m ρ c (Proc.devRef .tc main_arg6) := by keep_host hostOps0_1
    _ = W0 m ρ c (Proc.devRef .tc main_arg6) := by keep_host hostOps0
    _ = m ((c : Thread nD τ).loc main_arg6) := rfl

/-- Argument 7 is written by nothing before boundary 9: there it still holds its launch contents. -/
theorem arg7_at9 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := by keep_host hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by keep_host hostOps1
    _ = W3 m ρ c (Proc.devRef .tc main_arg7) := W4_of_ne m ρ c main_arg7 (by decide)
    _ = W2 m ρ c (Proc.devRef .tc main_arg7) := by keep_host hostOps0_2
    _ = W1 m ρ c (Proc.devRef .tc main_arg7) := by keep_host hostOps0_1
    _ = W0 m ρ c (Proc.devRef .tc main_arg7) := by keep_host hostOps0
    _ = m ((c : Thread nD τ).loc main_arg7) := rfl

/-- Argument 8 is written by nothing before boundary 10: there it still holds its launch contents. -/
theorem arg8_at10 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by keep_host hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by keep_host hostOps1
    _ = W3 m ρ c (Proc.devRef .tc main_arg8) := W4_of_ne m ρ c main_arg8 (by decide)
    _ = W2 m ρ c (Proc.devRef .tc main_arg8) := by keep_host hostOps0_2
    _ = W1 m ρ c (Proc.devRef .tc main_arg8) := by keep_host hostOps0_1
    _ = W0 m ρ c (Proc.devRef .tc main_arg8) := by keep_host hostOps0
    _ = m ((c : Thread nD τ).loc main_arg8) := rfl

/-- Argument 2 is written by nothing before boundary 12: there it still holds its launch contents. -/
theorem arg2_at12 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := by keep_host hostOps5
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := by keep_host hostOps3
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by keep_host hostOps1
    _ = W3 m ρ c (Proc.devRef .tc main_arg2) := W4_of_ne m ρ c main_arg2 (by decide)
    _ = W2 m ρ c (Proc.devRef .tc main_arg2) := by keep_host hostOps0_2
    _ = W1 m ρ c (Proc.devRef .tc main_arg2) := by keep_host hostOps0_1
    _ = W0 m ρ c (Proc.devRef .tc main_arg2) := by keep_host hostOps0
    _ = m ((c : Thread nD τ).loc main_arg2) := rfl

/-- Argument 9 is written by nothing before boundary 13: there it still holds its launch contents. -/
theorem arg9_at13 (c : Dev nD) : W13 m ρ c (Proc.devRef .tc main_arg9) = m ((c : Thread nD τ).loc main_arg9) :=
  calc W13 m ρ c (Proc.devRef .tc main_arg9)
    _ = W12 m ρ c (Proc.devRef .tc main_arg9) := by keep_host hostOps6
    _ = W11 m ρ c (Proc.devRef .tc main_arg9) := W12_of_ne m ρ c main_arg9 (by decide)
    _ = W10 m ρ c (Proc.devRef .tc main_arg9) := by keep_host hostOps5
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by keep_host hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by keep_host hostOps1
    _ = W3 m ρ c (Proc.devRef .tc main_arg9) := W4_of_ne m ρ c main_arg9 (by decide)
    _ = W2 m ρ c (Proc.devRef .tc main_arg9) := by keep_host hostOps0_2
    _ = W1 m ρ c (Proc.devRef .tc main_arg9) := by keep_host hostOps0_1
    _ = W0 m ρ c (Proc.devRef .tc main_arg9) := by keep_host hostOps0
    _ = m ((c : Thread nD τ).loc main_arg9) := rfl

/-- Argument 10 is written by nothing before boundary 14: there it still holds its launch contents. -/
theorem arg10_at14 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := by keep_host hostOps6
    _ = W11 m ρ c (Proc.devRef .tc main_arg10) := W12_of_ne m ρ c main_arg10 (by decide)
    _ = W10 m ρ c (Proc.devRef .tc main_arg10) := by keep_host hostOps5
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := by keep_host hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by keep_host hostOps1
    _ = W3 m ρ c (Proc.devRef .tc main_arg10) := W4_of_ne m ρ c main_arg10 (by decide)
    _ = W2 m ρ c (Proc.devRef .tc main_arg10) := by keep_host hostOps0_2
    _ = W1 m ρ c (Proc.devRef .tc main_arg10) := by keep_host hostOps0_1
    _ = W0 m ρ c (Proc.devRef .tc main_arg10) := by keep_host hostOps0
    _ = m ((c : Thread nD τ).loc main_arg10) := rfl

/-- Nothing between boundaries 3 and 4 writes main_v3. -/
theorem v3_keep4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- Nothing between boundaries 4 and 7 writes main_v3. -/
theorem v3_keep7 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host hostOps1

/-- Nothing between boundaries 7 and 10 writes main_v3. -/
theorem v3_keep10 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keep_host hostOps3

/-- Nothing between boundaries 3 and 4 writes main_v6. -/
theorem v6_keep4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Nothing between boundaries 4 and 7 writes main_v6. -/
theorem v6_keep7 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host hostOps1

/-- Nothing between boundaries 7 and 10 writes main_v6. -/
theorem v6_keep10 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keep_host hostOps3

/-- Nothing between boundaries 3 and 4 writes main_v31. -/
theorem v31_keep4 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- Nothing between boundaries 4 and 7 writes main_v31. -/
theorem v31_keep7 (c : Dev nD) : W7 m ρ c (Proc.devRef .tc main_v31) = W4 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by keep_host hostOps1

/-- Nothing between boundaries 7 and 10 writes main_v31. -/
theorem v31_keep10 (c : Dev nD) : W10 m ρ c (Proc.devRef .tc main_v31) = W7 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := by keep_host hostOps3

/-- Nothing between boundaries 14 and 15 writes main_v92. -/
theorem v92_keep15 (c : Dev nD) : W15 m ρ c (Proc.devRef .tc main_v92) = W14 m ρ c (Proc.devRef .tc main_v92) :=
  calc W15 m ρ c (Proc.devRef .tc main_v92)
    _ = W14 m ρ c (Proc.devRef .tc main_v92) := by keep_host hostOps7

end Cert.KernelIdeal.GcnValue

end
-- ==== Proof.KernelValue.lean ====
/-
  The idealized kernel's result is the network of the specification.

  The run's buffer contents are followed boundary by boundary.  A stretch of host operations puts at each buffer it writes
  the operation's value of the buffers it reads; a region leaves its output array at the region's function of its two input
  arrays (the eight region modules); everything else is carried.  Reading the result's buffer back through the sixteen
  boundaries gives, stage by stage, the specification's composition: the first product, a propagation step, bias and
  rectifier, the second product, and so on to the pooled rows, the head's product and its bias.  The host stretches of the
  kernel are, operation for operation, the reference's own (the edge lists with their self-loops, the normalization,
  gather / scale / scatter-add, the pooling), so each stretch's value IS the specification's stage once the values it reads
  are named.  The one difference in spelling: the kernel lays a bias vector out as a [1, N] row by a reshape, the reference
  by a broadcast; both rows have the same entries.
-/
import proofs.«117345_j46729244181042_1_alg».proof.Proof.KernelCarry

set_option maxRecDepth 16384

noncomputable section

namespace Cert.KernelIdeal.GcnValue

open Cert.KernelIdeal Cert.KernelIdeal.Gen
open Idealize.ShloMosaic Idealize.ShloMosaic.TcCoe Idealize.SL.Sem Idealize.ShloMosaic.StableHlo
open Cert.Gcn (FA IA)

variable [Cert.ReferenceIdeal.Facts]
variable (m : (ℓ : Loc nD τ sig) → Buf (Elt Ideal) ℓ) (ρ : Dev nD → PrngReg)

/-! ## The edge lists and the edge weights, computed by the first three host stretches -/

/-- After the first three stretches the sources' buffer holds the specification's edge sources. -/
theorem src_at3 (c : Dev nD) : W3 m ρ c (Proc.devRef .tc main_v3) = Cert.Gcn.srcIdx (F := Ideal) (aE m c) := by
  show StableHlo.after hostOps0_2 (StableHlo.after hostOps0_1 (StableHlo.after hostOps0 (W0 m ρ c))) (Proc.devRef .tc main_v3) = _
  after_results_simp
  rfl

/-- … the targets' buffer the specification's edge targets … -/
theorem dst_at3 (c : Dev nD) : W3 m ρ c (Proc.devRef .tc main_v6) = Cert.Gcn.dstIdx (F := Ideal) (aE m c) := by
  show StableHlo.after hostOps0_2 (StableHlo.after hostOps0_1 (StableHlo.after hostOps0 (W0 m ρ c))) (Proc.devRef .tc main_v6) = _
  after_results_simp
  rfl

/-- After the first stretch: the test "the degree is positive", … -/
theorem pos_at1 (c : Dev nD) : W1 m ρ c (Proc.devRef .tc main_v12)
    = cmpf (F := Ideal) .ogt (Cert.Gcn.deg (F := Ideal) (aE m c)) (broadcastInDim Cert.ReferenceIdeal.S100000 ![] Cert.ReferenceIdeal.Facts₀.bcast_S_S100000 (constant (F := Ideal) Cert.ReferenceIdeal.S_ .f32 0x00000000#32)) := by
  show StableHlo.after hostOps0 (W0 m ρ c) (Proc.devRef .tc main_v12) = _
  after_results_simp
  rfl

/-- … the reciprocal square root of the degree taken as at least one, … -/
theorem rsq_at1 (c : Dev nD) : W1 m ρ c (Proc.devRef .tc main_v15)
    = Host.rsqrt (F := Ideal) (maximumf (F := Ideal) (Cert.Gcn.deg (F := Ideal) (aE m c)) (broadcastInDim Cert.ReferenceIdeal.S100000 ![] Cert.ReferenceIdeal.Facts₀.bcast_S_S100000 (constant (F := Ideal) Cert.ReferenceIdeal.S_ .f32 0x3F800000#32))) := by
  show StableHlo.after hostOps0 (W0 m ρ c) (Proc.devRef .tc main_v15) = _
  after_results_simp
  rfl

/-- … and the zero that is chosen where the degree is not positive. -/
theorem zero_at1 (c : Dev nD) : W1 m ρ c (Proc.devRef .tc main_cst_3) = constant (F := Ideal) Cert.ReferenceIdeal.S_ .f32 0x00000000#32 := by
  show StableHlo.after hostOps0 (W0 m ρ c) (Proc.devRef .tc main_cst_3) = _
  after_results_simp

/-- The second stretch selects, entry by entry, between two buffers it reads and a zero it reads, whatever they hold. -/
theorem select_step (Wv : Valuation τ sig (Elt Ideal)) : StableHlo.after hostOps0_1 Wv (Proc.devRef .tc main_v16)
    = select (Wv (Proc.devRef .tc main_v12)) (Wv (Proc.devRef .tc main_v15))
        (broadcastInDim Cert.ReferenceIdeal.S100000 ![] Cert.ReferenceIdeal.Facts₀.bcast_S_S100000 (id (Wv (Proc.devRef .tc main_cst_3)))) := by
  after_results_simp
  rfl

/-- After the second stretch the buffer of the reciprocal square roots holds the specification's. -/
theorem dinv_at2 (c : Dev nD) : W2 m ρ c (Proc.devRef .tc main_v16) = Cert.Gcn.dinv (F := Ideal) (aE m c) := by
  refine (select_step (W1 m ρ c)).trans ?_
  rw [pos_at1, rsq_at1, zero_at1]
  rfl

theorem src_at2 (c : Dev nD) : W2 m ρ c (Proc.devRef .tc main_v3) = Cert.Gcn.srcIdx (F := Ideal) (aE m c) := by
  show StableHlo.after hostOps0_1 (StableHlo.after hostOps0 (W0 m ρ c)) (Proc.devRef .tc main_v3) = _
  after_results_simp
  rfl

theorem dst_at2 (c : Dev nD) : W2 m ρ c (Proc.devRef .tc main_v6) = Cert.Gcn.dstIdx (F := Ideal) (aE m c) := by
  show StableHlo.after hostOps0_1 (StableHlo.after hostOps0 (W0 m ρ c)) (Proc.devRef .tc main_v6) = _
  after_results_simp
  rfl

/-- … and after the third the weights' buffer holds the specification's edge weights: the product of the two gathers. -/
theorem norm_at3 (c : Dev nD) : W3 m ρ c (Proc.devRef .tc main_v31) = Cert.Gcn.norm (F := Ideal) (aE m c) := by
  have e16 := dinv_at2 m ρ c
  have e3 := src_at2 m ρ c
  have e6 := dst_at2 m ρ c
  show StableHlo.after hostOps0_2 (W2 m ρ c) (Proc.devRef .tc main_v31) = _
  generalize W2 m ρ c = Wv at e16 e3 e6 ⊢
  after_results_simp
  rw [e16, e3, e6]
  rfl

theorem src_at4 (c : Dev nD) : W4 m ρ c (Proc.devRef .tc main_v3) = Cert.Gcn.srcIdx (F := Ideal) (aE m c) := (v3_keep4 m ρ c).trans (src_at3 m ρ c)
theorem src_at7 (c : Dev nD) : W7 m ρ c (Proc.devRef .tc main_v3) = Cert.Gcn.srcIdx (F := Ideal) (aE m c) := (v3_keep7 m ρ c).trans (src_at4 m ρ c)
theorem src_at10 (c : Dev nD) : W10 m ρ c (Proc.devRef .tc main_v3) = Cert.Gcn.srcIdx (F := Ideal) (aE m c) := (v3_keep10 m ρ c).trans (src_at7 m ρ c)
theorem dst_at4 (c : Dev nD) : W4 m ρ c (Proc.devRef .tc main_v6) = Cert.Gcn.dstIdx (F := Ideal) (aE m c) := (v6_keep4 m ρ c).trans (dst_at3 m ρ c)
theorem dst_at7 (c : Dev nD) : W7 m ρ c (Proc.devRef .tc main_v6) = Cert.Gcn.dstIdx (F := Ideal) (aE m c) := (v6_keep7 m ρ c).trans (dst_at4 m ρ c)
theorem dst_at10 (c : Dev nD) : W10 m ρ c (Proc.devRef .tc main_v6) = Cert.Gcn.dstIdx (F := Ideal) (aE m c) := (v6_keep10 m ρ c).trans (dst_at7 m ρ c)
theorem norm_at4 (c : Dev nD) : W4 m ρ c (Proc.devRef .tc main_v31) = Cert.Gcn.norm (F := Ideal) (aE m c) := (v31_keep4 m ρ c).trans (norm_at3 m ρ c)
theorem norm_at7 (c : Dev nD) : W7 m ρ c (Proc.devRef .tc main_v31) = Cert.Gcn.norm (F := Ideal) (aE m c) := (v31_keep7 m ρ c).trans (norm_at4 m ρ c)
theorem norm_at10 (c : Dev nD) : W10 m ρ c (Proc.devRef .tc main_v31) = Cert.Gcn.norm (F := Ideal) (aE m c) := (v31_keep10 m ρ c).trans (norm_at7 m ρ c)

/-! ## The first layer -/

/-- Region 0 leaves the first product. -/
theorem val_h1 (c : Dev nD) : W4 m ρ c (Proc.devRef .tc main_v32) = h1 m c := by
  refine (W4_arr m ρ c 2).trans ?_
  refine (Tiles.region0 (V3 m ρ) c).trans ?_
  show Cert.Gcn.mulIn (F := Ideal) (W3 m ρ c (Proc.devRef .tc main_arg0)) (W3 m ρ c (Proc.devRef .tc main_arg3)) = _
  rw [arg0_at3, arg3_at3]

/-- The stretch after region 0 propagates it along the edges. -/
theorem val_g1 (c : Dev nD) : W5 m ρ c (Proc.devRef .tc main_v45) = g1 m c := by
  show StableHlo.after hostOps1 (W4 m ρ c) (Proc.devRef .tc main_v45) = _
  after_results_simp
  rw [src_at4, dst_at4, norm_at4, val_h1]
  rfl

/-- The same stretch lays the first bias out as a row. -/
theorem val_b1 (c : Dev nD) : W5 m ρ c (Proc.devRef .tc main_v46)
    = broadcastInDim Cert.ReferenceIdeal.S1x64 ![1] Cert.ReferenceIdeal.Facts₀.bcast_S64_S1x64_1 (ab1 m c) := by
  show StableHlo.after hostOps1 (W4 m ρ c) (Proc.devRef .tc main_v46) = _
  after_results_simp
  rw [arg4_at4]
  exact Tiles.rowOf _ _ _

/-- Region 1 adds the bias and rectifies. -/
theorem val_r1 (c : Dev nD) : W6 m ρ c (Proc.devRef .tc main_v47) = r1 m c := by
  refine (W6_arr m ρ c 2).trans ?_
  refine (Tiles.region1 (V5 m ρ) c).trans ?_
  show Cert.Gcn.rect (F := Ideal) (Cert.Gcn.biasedRow (F := Ideal) (W5 m ρ c (Proc.devRef .tc main_v45)) (W5 m ρ c (Proc.devRef .tc main_v46))) = _
  rw [val_g1, val_b1]
  rfl

/-! ## The second layer -/

/-- Region 2 leaves the second product. -/
theorem val_h2 (c : Dev nD) : W7 m ρ c (Proc.devRef .tc main_v48) = h2 m c := by
  refine (W7_arr m ρ c 2).trans ?_
  refine (Tiles.region2 (V6 m ρ) c).trans ?_
  show Cert.Gcn.mulHid (F := Ideal) (W6 m ρ c (Proc.devRef .tc main_v47)) (W6 m ρ c (Proc.devRef .tc main_arg5)) = _
  rw [val_r1, arg5_at6]

/-- The stretch after region 2 propagates it along the edges. -/
theorem val_g2 (c : Dev nD) : W8 m ρ c (Proc.devRef .tc main_v61) = g2 m c := by
  show StableHlo.after hostOps3 (W7 m ρ c) (Proc.devRef .tc main_v61) = _
  after_results_simp
  rw [src_at7, dst_at7, norm_at7, val_h2]
  rfl

/-- The same stretch lays the second bias out as a row. -/
theorem val_b2 (c : Dev nD) : W8 m ρ c (Proc.devRef .tc main_v62)
    = broadcastInDim Cert.ReferenceIdeal.S1x64 ![1] Cert.ReferenceIdeal.Facts₀.bcast_S64_S1x64_1 (ab2 m c) := by
  show StableHlo.after hostOps3 (W7 m ρ c) (Proc.devRef .tc main_v62) = _
  after_results_simp
  rw [arg6_at7]
  exact Tiles.rowOf _ _ _

/-- Region 3 adds the bias and rectifies. -/
theorem val_r2 (c : Dev nD) : W9 m ρ c (Proc.devRef .tc main_v63) = r2 m c := by
  refine (W9_arr m ρ c 2).trans ?_
  refine (Tiles.region3 (V8 m ρ) c).trans ?_
  show Cert.Gcn.rect (F := Ideal) (Cert.Gcn.biasedRow (F := Ideal) (W8 m ρ c (Proc.devRef .tc main_v61)) (W8 m ρ c (Proc.devRef .tc main_v62))) = _
  rw [val_g2, val_b2]
  rfl

/-! ## The third layer -/

/-- Region 4 leaves the third product. -/
theorem val_h3 (c : Dev nD) : W10 m ρ c (Proc.devRef .tc main_v64) = h3 m c := by
  refine (W10_arr m ρ c 2).trans ?_
  refine (Tiles.region4 (V9 m ρ) c).trans ?_
  show Cert.Gcn.mulHid (F := Ideal) (W9 m ρ c (Proc.devRef .tc main_v63)) (W9 m ρ c (Proc.devRef .tc main_arg7)) = _
  rw [val_r2, arg7_at9]

/-- The stretch after region 4 propagates it along the edges. -/
theorem val_g3 (c : Dev nD) : W11 m ρ c (Proc.devRef .tc main_v77) = g3 m c := by
  show StableHlo.after hostOps5 (W10 m ρ c) (Proc.devRef .tc main_v77) = _
  after_results_simp
  rw [src_at10, dst_at10, norm_at10, val_h3]
  rfl

/-- The same stretch lays the third bias out as a row. -/
theorem val_b3 (c : Dev nD) : W11 m ρ c (Proc.devRef .tc main_v78)
    = broadcastInDim Cert.ReferenceIdeal.S1x64 ![1] Cert.ReferenceIdeal.Facts₀.bcast_S64_S1x64_1 (ab3 m c) := by
  show StableHlo.after hostOps5 (W10 m ρ c) (Proc.devRef .tc main_v78) = _
  after_results_simp
  rw [arg8_at10]
  exact Tiles.rowOf _ _ _

/-- Region 5 adds the bias. -/
theorem val_r3 (c : Dev nD) : W12 m ρ c (Proc.devRef .tc main_v79) = r3 m c := by
  refine (W12_arr m ρ c 2).trans ?_
  refine (Tiles.region5 (V11 m ρ) c).trans ?_
  show Cert.Gcn.biasedRow (F := Ideal) (W11 m ρ c (Proc.devRef .tc main_v77)) (W11 m ρ c (Proc.devRef .tc main_v78)) = _
  rw [val_g3, val_b3]
  rfl

/-! ## Pooling and the head -/

/-- The stretch after region 5 averages the rows within each group. -/
theorem val_po (c : Dev nD) : W13 m ρ c (Proc.devRef .tc main_v91) = po m c := by
  show StableHlo.after hostOps6 (W12 m ρ c) (Proc.devRef .tc main_v91) = _
  after_results_simp
  rw [arg2_at12, val_r3]
  rfl

/-- Region 6 leaves the head's product. -/
theorem val_lo (c : Dev nD) : W14 m ρ c (Proc.devRef .tc main_v92) = lo m c := by
  refine (W14_arr m ρ c 2).trans ?_
  refine (Tiles.region6 (V13 m ρ) c).trans ?_
  show Cert.Gcn.mulOut (F := Ideal) (W13 m ρ c (Proc.devRef .tc main_v91)) (W13 m ρ c (Proc.devRef .tc main_arg9)) = _
  rw [val_po, arg9_at13]

/-- The last stretch lays the head's bias out as a [1, 1] entry. -/
theorem val_bl (c : Dev nD) : W15 m ρ c (Proc.devRef .tc main_v93)
    = broadcastInDim Cert.ReferenceIdeal.S1x1 ![1] Cert.ReferenceIdeal.Facts₀.bcast_S1_S1x1_1 (abl m c) := by
  show StableHlo.after hostOps7 (W14 m ρ c) (Proc.devRef .tc main_v93) = _
  after_results_simp
  rw [arg10_at14]
  exact Tiles.rowOf _ _ _

/-- The head's product is carried across the last stretch. -/
theorem val_lo15 (c : Dev nD) : W15 m ρ c (Proc.devRef .tc main_v92) = lo m c := (v92_keep15 m ρ c).trans (val_lo m ρ c)

/-- THE RESULT: at the last boundary the result's buffer holds the specification's network of the eleven arguments. -/
theorem result_eq (c : Dev nD) : W16 m ρ c (Proc.devRef .tc main_v94)
    = Cert.Gcn.out (F := Ideal) (aX m c) (aE m c) (aB m c) (aW1 m c) (ab1 m c) (aW2 m c) (ab2 m c) (aW3 m c) (ab3 m c) (aWl m c) (abl m c) := by
  refine (W16_arr m ρ c 2).trans ?_
  refine (Tiles.region7 (V15 m ρ) c).trans ?_
  show Cert.Gcn.shiftedRow (F := Ideal) (W15 m ρ c (Proc.devRef .tc main_v92)) (W15 m ρ c (Proc.devRef .tc main_v93)) = _
  rw [val_lo15, val_bl]
  rfl

end Cert.KernelIdeal.GcnValue

end
-- ==== Proof.RefValue.lean ====
/-
  The reference program's result is the network of the specification.

  The reference's run ends with its result array at the composition of its 129 host operations, written out as one
  term over the eleven argument arrays.  That term is, operation for operation, the specification's composition of
  stages with every stage opened; the two are the same expression once the stages' names are unfolded.
-/
import proofs.«117345_j46729244181042_1_alg».proof.Proof.RefRunPatched
import proofs.«117345_j46729244181042_1_alg».proof.Proof.GcnSpec
import Idealize.ShloMosaic.PureOps.Ideal.Laws

set_option maxRecDepth 16384

noncomputable section

namespace Cert.ReferenceIdeal.GcnValue

open Cert.ReferenceIdeal Idealize.ShloMosaic Idealize.ShloMosaic.TcCoe Idealize.SL.Sem

/-- The result term of the reference's run is the specification's network at the launch contents of the arguments. -/
theorem result_eq (m : (ℓ : Loc nD τ sig) → Buf (Elt Ideal) ℓ) (c : Dev nD) :
    Cert.ReferenceIdeal.ValueP.res_main_v100 (F := Ideal) m c
      = Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v100
  rfl

end Cert.ReferenceIdeal.GcnValue

end
-- ==== Proof.lean ====
/-
  A three-layer graph convolution with mean pooling and a linear head: the tiled kernel against the plain reference.

  The kernel computes the three dense products, the bias (and rectifier) passes and the head as eight tiled regions, and
  leaves the edge normalization, the gather / scale / scatter-add along the edges and the pooling to host operations
  between the regions; the reference computes everything with host operations.  At the ideal instance a change of float
  format is the identity and a product accumulated into a zero matrix is the exact product, so each region leaves in its
  output array exactly the array the reference's corresponding operation produces from the same two inputs; the host
  operations between the regions are the reference's own.  Both programs therefore end with the same composition of
  stages (the specification's network) of the eleven argument arrays, and no law beyond that identification is used:
  finiteness of the inputs is never needed.

  The three frame claims are the generated frame certificates of the two kernels and the reference's run with its result
  dropped; the idealization rewrote no operation, so nothing is to be preserved.
-/
import proofs.«117345_j46729244181042_1_alg».proof.Defs
import proofs.«117345_j46729244181042_1_alg».proof.Proof.Gen.Kernel
import proofs.«117345_j46729244181042_1_alg».proof.Proof.Gen.Kernel.Skeleton
import proofs.«117345_j46729244181042_1_alg».proof.Proof.Gen.Kernel.Launch
import proofs.«117345_j46729244181042_1_alg».proof.Proof.Gen.Kernel.Points
import proofs.«117345_j46729244181042_1_alg».proof.Proof.Gen.Kernel.Frame
import proofs.«117345_j46729244181042_1_alg».proof.Proof.Gen.KernelIdeal
import proofs.«117345_j46729244181042_1_alg».proof.Proof.Gen.KernelIdeal.Skeleton
import proofs.«117345_j46729244181042_1_alg».proof.Proof.Gen.KernelIdeal.Launch
import proofs.«117345_j46729244181042_1_alg».proof.Proof.Gen.KernelIdeal.Points
import proofs.«117345_j46729244181042_1_alg».proof.Proof.Gen.KernelIdeal.Frame
import proofs.«117345_j46729244181042_1_alg».proof.Proof.Gen.ReferenceIdeal
import proofs.«117345_j46729244181042_1_alg».proof.Proof.Gen.Pre_finite_inputs
import proofs.«117345_j46729244181042_1_alg».proof.Proof.KernelRun
import proofs.«117345_j46729244181042_1_alg».proof.Proof.KernelValue
import proofs.«117345_j46729244181042_1_alg».proof.Proof.RefRunPatched
import proofs.«117345_j46729244181042_1_alg».proof.Proof.RefValue
import Idealize.ShloMosaic.Adequacy
import Idealize.ShloMosaic.Init

set_option maxRecDepth 16384

noncomputable section

namespace Cert.Proof

open Idealize.ShloMosaic Idealize.SL.Sem

/-- The specification's network at the kernel's launch contents of the eleven arguments: the common result. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v94) :=
  Cert.Gcn.out (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  fun m ρ m' ρ' _ hagree => ⟨common m,
    (θ_run Cert.KernelIdeal.defs _ _).mono (fun r h c => ⟨(h c).1.trans (Cert.KernelIdeal.GcnValue.result_eq m ρ c), (h c).2⟩)
      (Cert.KernelIdeal.GcnRun.run_result (F := Ideal) m ρ),
    (θ_run Cert.ReferenceIdeal.defs _ _).mono (fun r h c => ⟨(h c).1.trans ((Cert.ReferenceIdeal.GcnValue.result_eq m' c).trans (by
        obtain ⟨e0, e1, e2, e3, e4, e5, e6, e7, e8, e9, e10⟩ := hagree c
        unfold common
        rw [e0, e1, e2, e3, e4, e5, e6, e7, e8, e9, e10])), (h c).2⟩)
      (Cert.ReferenceIdeal.ValueP.run (F := Ideal) m' ρ')⟩⟩

end Cert.Proof

end
